-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 30
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x1, .i32⟩
  | .hbm, ⟨8, _⟩ => ⟨S1x8192, .i32⟩
  | .hbm, ⟨9, _⟩ => ⟨S8192x1, .f32⟩
  | .hbm, ⟨10, _⟩ => ⟨S8192x1, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .i1⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_26 : BitVec 32 := 0#32
  let v49 : BitVec 1 := Scalar.cmpi .ne v48 c0_i32_26
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .i1⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_call2_v0 : Ref sig .tc := ⟨.hbm, 33, rfl⟩
abbrev main_call2_v1 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Runs.lean ====
/-
  What the three runs of the mining kernel's body share. The grid is 8 × 8 points, walked row by row: point t is
  row-block t / 8 against column-block t % 8. The body resets its two running accumulators where the column-block is 0,
  folds the tile's row maxima and minima into them at every point, and copies them into the two output blocks where the
  column-block is 7. So a point is in one of three cases: first column (reset, no output), middle (neither), last
  column (output). Stated here: the contents the region finds (the host lines before it applied to the launch
  memory), each window's block at a point, the two conditions in closed form over the grid, where the outputs are idle,
  and the memrefs the runs are stated over.
-/
import proofs.«174582_j2078764171739_1_alg».proof.Proof.Gen.Kernel.Launch
import proofs.«174582_j2078764171739_1_alg».proof.Proof.Gen.Kernel.Skeleton
import proofs.«174582_j2078764171739_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the seven host lines before it applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, the lines after it: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two conditions -/

/-- "The column-block is the first": the reset's condition. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "The column-block is the last": the output's condition. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The memrefs the runs are stated over -/

abbrev VO0_6 : View sig .tc .vmem S1024x1 .f32 := (Memref.whole cc0_stg6_0 : Memref sig .tc .vmem S1024x1 .f32).view
abbrev VO0_7 : View sig .tc .vmem S1024x1 .f32 := (Memref.whole cc0_stg7_0 : Memref sig .tc .vmem S1024x1 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- What the launch hands the region beside the windows: the two accumulators owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.K.RunA.lean ====
/-
  The body's run in the case of a first column-block: the accumulators are reset, then the tile's row maxima and minima folded in; no output is stored. On whole staging memrefs holding the six input blocks, the body runs to its
  continuation with the inputs as they were and each buffer it stored into holding the stores' pieces (found by the run).
-/
import proofs.«174582_j2078764171739_1_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__mine_kernel_eq_skeleton]; unfold cc0__mine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Fr

end
-- ==== Proof.K.RunB.lean ====
/-
  The body's run in the case of a a middle column-block: the tile's row maxima and minima are folded into the accumulators; no output is stored. On whole staging memrefs holding the six input blocks, the body runs to its
  continuation with the inputs as they were and each buffer it stored into holding the stores' pieces (found by the run).
-/
import proofs.«174582_j2078764171739_1_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__mine_kernel_eq_skeleton]; unfold cc0__mine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Fr

end
-- ==== Proof.K.RunC.lean ====
/-
  The body's run in the case of a last column-block: the tile's row maxima and minima are folded in, then the accumulators copied into the two output blocks. On whole staging memrefs holding the six input blocks, the body runs to its
  continuation with the inputs as they were and each buffer it stored into holding the stores' pieces (found by the run).
-/
import proofs.«174582_j2078764171739_1_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) :
    Σ' (L6 L7 LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__mine_kernel_eq_skeleton]; unfold cc0__mine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.Fr

end
-- ==== Proof.K.Frame.lean ====
/-
  The frame of the mining kernel's region. Per case, what the body's stores leave in the two accumulators (and, in the
  last-column case, in the two output blocks), read back from the pieces the runs found; point by point, what the
  accumulators hold (the case the point is in, over what the point before left); the invariant carrying them from
  point to point; the proof data — the arrays as the region finds them, the input blocks in place, the array behind
  the two feature windows held as two half shares, one per window —; and the body obligation at every point.
-/
import proofs.«174582_j2078764171739_1_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's stores into accumulator 0 cover it. -/
theorem scover0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).1 S1024x1.size (by sl_kernel_rfl) y

/-- What case A leaves in accumulator 0. -/
def sout0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).1)

/-- Case A's stores into accumulator 1 cover it. -/
theorem scover0_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.1 S1024x1.size (by sl_kernel_rfl) y

/-- What case A leaves in accumulator 1. -/
def sout0_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

/-- Case B's stores into accumulator 0 cover it. -/
theorem scover0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- What case B leaves in accumulator 0. -/
def sout0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1)

/-- Case B's stores into accumulator 1 cover it. -/
theorem scover0_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What case B leaves in accumulator 1. -/
def sout0_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's stores into accumulator 0 cover it. -/
theorem scover0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What case C leaves in accumulator 0. -/
def sout0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's stores into accumulator 1 cover it. -/
theorem scover0_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What case C leaves in accumulator 1. -/
def sout0_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The last-column case's store into output 6 covers its block. -/
theorem cover0_C_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- What the last-column case leaves in output 6's staging buffer. -/
def out0_C_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)

/-- The last-column case's store into output 7 covers its block. -/
theorem cover0_C_7 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What the last-column case leaves in output 7's staging buffer. -/
def out0_C_7 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Contents nothing consults: an output block at a point that stores nothing into it and does not write it back. -/
def idleOut : Vec F S1024x1 .f32 := VO0_6.read (Elt F) VO0_6.junk

/-! ## What the accumulators and the outputs hold after each point -/

/-- After the body at position `n`: (output 6, output 7, accumulator 0, accumulator 1). -/
def outsAt0 (c : Dev nD) : (n : ℕ) → n < cfg0.N → Vec F S1024x1 .f32 × Vec F S1024x1 .f32 × Vec F S1024x1 .f32 × Vec F S1024x1 .f32
  | 0, hn => (idleOut, idleOut,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by omega)
      else
        (idleOut, idleOut,
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
          sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
          out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)
      else
        (idleOut, idleOut,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 m c t.val t.isLt = (idleOut, idleOut,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (idleOut, idleOut,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (
      out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point what the launch hands over (the accumulators at anything);
    afterwards the accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The proof data -/

/-- The array behind the two feature windows is held as two halves, one per window; every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point: the inputs' buffers hold their blocks; the closed forms say which case the point is in; that
    case's run applies, taking the accumulators at what the point before left (at anything at the first point) and
    giving them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [outsAt0_A m c t h0 h1]
      unfold sout0_A_0 sout0_A_1; (try dsimp only)
      by_cases hz : t.val = 0
      ·
        rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

  · by_cases h1 : t.val % 8 = 7
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [outsAt0_C m c t h0 h1]
      unfold out0_C_6 out0_C_7 sout0_C_0 sout0_C_1; (try dsimp only)
      have hz : t.val ≠ 0 := fun hz => h0 (by rw [hz])
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _)

    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B m c t h0 h1]
      unfold sout0_B_0 sout0_B_1; (try dsimp only)
      have hz : t.val ≠ 0 := fun hz => h0 (by rw [hz])
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Fr

end
-- ==== Proof.K.Arrays.lean ====
/-
  The arrays behind the region's windows, as the launch hands them over and takes them back. Eight windows stage seven
  buffers: the feature array is read through two windows, so its full share is split into two halves, one per window,
  and joined again when the region ends; every other array goes to its one window whole. Then the contents of the
  unscoped buffers when the region has ended (the two output arrays at what the write-backs left, every other buffer as
  the region found it), and the nineteen host lines after the region run within them.
-/
import proofs.«174582_j2078764171739_1_alg».proof.Proof.K.Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq bigSepL_cons_cons bigSepL_singleton)
open Idealize.ShloMosaic.Pipeline (ΦA restRefs restRefsP unscopedRest unscopedRestP arrBufs Prefetch chain ucRefs)

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- The windows' arrays, one by one, as points-tos of the buffers behind them. -/
theorem arrays_eq_chain (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    ((dats m 0 c).arrays G : sProp 𝕄)
      = iprop((((c : Thread nD τ).loc main_arg0) ↦{fullShare.left} W main_arg0) ∗ (((c : Thread nD τ).loc main_arg0) ↦{fullShare.right} W main_arg0)
          ∗ (((c : Thread nD τ).loc main_v2) ↦{fullShare} W main_v2) ∗ (((c : Thread nD τ).loc main_v3) ↦{fullShare} W main_v3)
          ∗ (((c : Thread nD τ).loc main_v4) ↦{fullShare} W main_v4) ∗ (((c : Thread nD τ).loc main_v5) ↦{fullShare} W main_v5)
          ∗ (((c : Thread nD τ).loc main_v6_0) ↦{fullShare} W main_v6_0) ∗ (((c : Thread nD τ).loc main_v6_1) ↦{fullShare} W main_v6_1)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ,
    share_0, share_1, share_2, share_3, share_4, share_5, share_6, share_7, hG 0, hG 1, hG 2, hG 3, hG 4, hG 5, hG 6, hG 7]

/-- The distinct buffers behind the windows, one by one. -/
theorem arrBufs_eq_chain (c : Dev nD) (W : (b : Ref sig .tc) → Buf (Elt F) ((c : Thread nD τ).loc b)) :
    (arrBufs spec0 c W : sProp 𝕄)
      = iprop((((c : Thread nD τ).loc main_arg0) ↦{fullShare} W main_arg0)
          ∗ (((c : Thread nD τ).loc main_v2) ↦{fullShare} W main_v2) ∗ (((c : Thread nD τ).loc main_v3) ↦{fullShare} W main_v3)
          ∗ (((c : Thread nD τ).loc main_v4) ↦{fullShare} W main_v4) ∗ (((c : Thread nD τ).loc main_v5) ↦{fullShare} W main_v5)
          ∗ (((c : Thread nD τ).loc main_v6_0) ↦{fullShare} W main_v6_0) ∗ (((c : Thread nD τ).loc main_v6_1) ↦{fullShare} W main_v6_1)) := by
  unfold arrBufs
  rw [bigSep_eq_bigSepL_of_eq [main_arg0, main_v2, main_v3, main_v4, main_v5, main_v6_0, main_v6_1] (by decide) (by decide)]
  rfl

/-- The full share of the feature array split between its two windows. -/
theorem arrays_of_bufs (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    (arrBufs spec0 c W : sProp 𝕄) ⊢ (dats m 0 c).arrays G := by
  rw [arrays_eq_chain m c W G hG, arrBufs_eq_chain c W]
  iintro ⟨Ha, H2, H3, H4, H5, H6, H7⟩
  ihave Hs := (pointsTo_share (PosShare.mem_left_op_right fullShare)).1 $$ Ha
  icases Hs with ⟨Hl, Hr⟩
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  iexact H7

/-- And joined again. -/
theorem bufs_of_arrays (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    ((dats m 0 c).arrays G : sProp 𝕄) ⊢ arrBufs spec0 c W := by
  rw [arrays_eq_chain m c W G hG, arrBufs_eq_chain c W]
  iintro ⟨Hl, Hr, H2, H3, H4, H5, H6, H7⟩
  isplitl [Hl Hr]
  · iapply (pointsTo_share (PosShare.mem_left_op_right fullShare)).2
    isplitl [Hl] <;> iassumption
  isplitl [H2]; · iexact H2
  isplitl [H3]; · iexact H3
  isplitl [H4]; · iexact H4
  isplitl [H5]; · iexact H5
  isplitl [H6]; · iexact H6
  iexact H7

/-! ## When the region has ended -/

/-- The unscoped buffers when the region has ended: the two output arrays at what the write-backs left, every other
    buffer as the region found it. -/
def W2 (c : Dev nD) : Valuation τ sig (Elt F) :=
  Function.update (Function.update (V0 m c) (Proc.devRef .tc main_v6_0) ((dats m 0 c).arrAt 6 cfg0.N))
    (Proc.devRef .tc main_v6_1) ((dats m 0 c).arrAt 7 cfg0.N)

/-- And after the nineteen host lines that follow. -/
def VT (c : Dev nD) : Valuation τ sig (Elt F) := StableHlo.after hostOps1 (W2 m c)

theorem W2_v6_1 (c : Dev nD) : W2 m c (Proc.devRef .tc main_v6_1) = (dats m 0 c).arrAt 7 cfg0.N := by
  unfold W2; exact Function.update_self _ _ _

theorem W2_v6_0 (c : Dev nD) : W2 m c (Proc.devRef .tc main_v6_0) = (dats m 0 c).arrAt 6 cfg0.N := by
  unfold W2
  rw [Function.update_of_ne (StableHlo.devRef_ne_of_ne (by decide))]
  exact Function.update_self _ _ _

theorem W2_other (c : Dev nD) (b : Ref sig .tc) (h0 : b ≠ main_v6_0) (h1 : b ≠ main_v6_1) : W2 m c (Proc.devRef .tc b) = V m c b := by
  unfold W2
  rw [Function.update_of_ne (StableHlo.devRef_ne_of_ne h1), Function.update_of_ne (StableHlo.devRef_ne_of_ne h0)]

/-- Every window's array, at the region's end, is what `W2` holds behind it: an input array was never written. -/
theorem arrAt_W2 (c : Dev nD) (w : Fin cfg0.W) : (dats m 0 c).arrAt w cfg0.N = W2 m c (Proc.devRef .tc (Pipeline.arrRef spec0 w)) := by
  match w with
  | ⟨0, _⟩ => exact ((dats m 0 c).arrAt_in 0 rfl _).trans ((A_eq m c 0).trans (W2_other m c main_arg0 (by decide) (by decide)).symm)
  | ⟨1, _⟩ => exact ((dats m 0 c).arrAt_in 1 rfl _).trans ((A_eq m c 1).trans (W2_other m c main_arg0 (by decide) (by decide)).symm)
  | ⟨2, _⟩ => exact ((dats m 0 c).arrAt_in 2 rfl _).trans ((A_eq m c 2).trans (W2_other m c main_v2 (by decide) (by decide)).symm)
  | ⟨3, _⟩ => exact ((dats m 0 c).arrAt_in 3 rfl _).trans ((A_eq m c 3).trans (W2_other m c main_v3 (by decide) (by decide)).symm)
  | ⟨4, _⟩ => exact ((dats m 0 c).arrAt_in 4 rfl _).trans ((A_eq m c 4).trans (W2_other m c main_v4 (by decide) (by decide)).symm)
  | ⟨5, _⟩ => exact ((dats m 0 c).arrAt_in 5 rfl _).trans ((A_eq m c 5).trans (W2_other m c main_v5 (by decide) (by decide)).symm)
  | ⟨6, _⟩ => exact (W2_v6_0 m c).symm
  | ⟨7, _⟩ => exact (W2_v6_1 m c).symm

/-- The lines after the region write no window's array. -/
theorem tail_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem VT_arr (c : Dev nD) (w : Fin cfg0.W) : VT m c (Proc.devRef .tc (Pipeline.arrRef spec0 w)) = (dats m 0 c).arrAt w cfg0.N := by
  unfold VT
  rw [StableHlo.after_of_forall_not_mem _ _ fun op hop => tail_keeps op hop w]
  exact (arrAt_W2 m c w).symm

/-- A buffer that bypasses the region is neither output array. -/
theorem rest_ne (b : Ref sig .tc) (hb : b ∈ restRefs sig spec0) : b ≠ main_v6_0 ∧ b ≠ main_v6_1 := by
  have h := (Finset.mem_sdiff.mp hb).2
  constructor
  · rintro rfl; exact h (Finset.mem_image.mpr ⟨6, Finset.mem_univ _, rfl⟩)
  · rintro rfl; exact h (Finset.mem_image.mpr ⟨7, Finset.mem_univ _, rfl⟩)

theorem rest_W2 (c : Dev nD) :
    (unscopedRest spec0 c (V m c) : sProp 𝕄) = unscopedRest spec0 c (fun b => W2 m c (Proc.devRef .tc b)) := by
  unfold unscopedRest
  exact bigSep_congr fun b hb => by dsimp only; rw [W2_other m c b (rest_ne b hb).1 (rest_ne b hb).2]

set_option backward.isDefEq.respectTransparency.types false in
/-- The lines after the region: from the region's exit — the boundary, the windows' arrays at what the write-backs
    left, the bypassing buffers as the region found them — they run within all the unscoped buffers and hand the arrays
    back unchanged, the bypassing buffers at what the lines leave. -/
theorem tail_run (c : Dev nD) (Q' : PUnit → sProp 𝕄) :
    iprop((iprop((dats m 0 c).arrays ((dats m 0 c).arrAt · cfg0.N) ∗ unscopedRestP (Ix := Unit) (Name := ℕ) (U := UR sig nD τ) (Lvl := ℕ) Prefetch.none spec0 c (fun b => VT m c (Proc.devRef .tc b))) -∗ Q' ⟨⟩)
        ∗ boundary (c.tc : Thread nD τ) ∗ (dats m 0 c).arrays ((dats m 0 c).arrAt · cfg0.N) ∗ unscopedRestP (Ix := Unit) (Name := ℕ) (U := UR sig nD τ) (Lvl := ℕ) Prefetch.none spec0 c (V m c))
      ⊢ wp frame (wpE (Pipeline.defs (fun q => (cfgs q).toPCfg (Val := Elt F)) defs₀) (Variants.lift Variants.none) (c.tc : Thread nD τ) none) Set.univ (chain [StableHlo.seq hostOps1]) Q' := by
  rw [Pipeline.unscopedRestP_none, Pipeline.unscopedRestP_none, rest_W2 m c]
  have e1 : iprop((dats m 0 c).arrays ((dats m 0 c).arrAt · cfg0.N) ∗ unscopedRest (Ix := Unit) (Name := ℕ) (U := UR sig nD τ) (Lvl := ℕ) spec0 c (fun b => W2 m c (Proc.devRef .tc b)))
      ⊢ (StableHlo.held (c.tc : Thread nD τ) (ucRefs τ sig) (W2 m c) : sProp 𝕄) := by
    rw [← Pipeline.unscopedBufs_held (Ix := Unit) (Name := ℕ) (U := UR sig nD τ) (Lvl := ℕ) c (W2 m c),
      Pipeline.unscopedBufs_split₀ cfgs 0 winFacts₀0.arr_unscoped c]
    exact sep_mono (bufs_of_arrays m c (fun b => W2 m c (Proc.devRef .tc b)) _ (arrAt_W2 m c)) .rfl
  have e2 : (StableHlo.held (c.tc : Thread nD τ) (ucRefs τ sig) (StableHlo.after hostOps1 (W2 m c)) : sProp 𝕄)
      ⊢ iprop((dats m 0 c).arrays ((dats m 0 c).arrAt · cfg0.N) ∗ unscopedRest (Ix := Unit) (Name := ℕ) (U := UR sig nD τ) (Lvl := ℕ) spec0 c (fun b => VT m c (Proc.devRef .tc b))) := by
    rw [← Pipeline.unscopedBufs_held (Ix := Unit) (Name := ℕ) (U := UR sig nD τ) (Lvl := ℕ) c (StableHlo.after hostOps1 (W2 m c)),
      Pipeline.unscopedBufs_split₀ cfgs 0 winFacts₀0.arr_unscoped c]
    exact sep_mono (arrays_of_bufs m c (fun b => VT m c (Proc.devRef .tc b)) _ (fun w => (VT_arr m c w).symm)) .rfl
  iintro ⟨Hk, Hbd, Harr, Hrest⟩
  ihave Hu := e1 $$ [Harr Hrest]
  · isplitl [Harr] <;> iassumption
  iapply (Pipeline.wp_seqs_then (fun q => (cfgs q).toPCfg (Val := Elt F)) defs₀ Variants.none c (ucRefs τ sig) [] [hostOps1]
    (fun ops ho op h => by
      simp only [List.mem_cons, List.mem_nil_iff, or_false] at ho; subst ho
      exact Pipeline.sub_ucRefs op ((List.forall_iff_forall_mem.mp hostOps1_sub) op h))
    (fun ops ho op h => by
      simp only [List.mem_cons, List.mem_nil_iff, or_false] at ho; subst ho
      exact (List.forall_iff_forall_mem.mp hostOps1_fresh) op h) (W2 m c)) $$ [Hbd Hu]
  · isplitl [Hbd] <;> iassumption
  iintro ⟨Hbd, Hh⟩
  simp only [List.flatten_cons, List.flatten_nil, List.append_nil, Pipeline.chain_nil]
  rw [show (pure ⟨⟩ : Prog (TpuEff nD τ sig (Elt F) _ .tc) PUnit) = .ret ⟨⟩ from rfl, wp_ret]
  imodintro
  iapply Hk
  iapply e2
  iexact Hh

end Cert.Kernel.Fr

end
-- ==== Proof.K.Region.lean ====
/-
  The run of @main: the seven host lines, the region, the nineteen host lines after it. The launch hands the region the
  arrays behind its windows — the feature array, staged through two windows, as two half shares — and takes them
  back at what the write-backs left; the lines after the region then run within all the unscoped buffers, the two
  outputs' arrays at their written-back contents and every other buffer as the region found it.
-/
import proofs.«174582_j2078764171739_1_alg».proof.Proof.K.Arrays

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (ΦA restRefs restRefsP unscopedRest unscopedRestP arrBufs Prefetch PreFacts OwnSemFacts cells launchToks pin chain ucRefs)

set_option backward.isDefEq.respectTransparency.types false in
set_option maxHeartbeats 4000000 in
theorem run_main : θ_run defs (onTc (τ := τ) (main (F := F))) (s₀ m ρ) (Pipeline.FramePost cfgs (dats m) 0 (fun c b => VT m c (Proc.devRef .tc b))) := by
  classical
  have hinj : Function.Injective (cellOf (nD := nD) (τ := τ) (pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) (dats m) () hinj 0 winFacts₀0
    (OwnSemFacts.none spec0) (PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (cells _ hinj) (launchToks _ hinj))
    (hu₀ := by
      iintro Hu; imodintro
      isplitl [Hu]; · iapply (show (ownU _ : sProp 𝕄) ⊢ BI.own (emb₁ (initOf (cells _ hinj) (launchToks _ hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c) _ (fun w => A_eq m c w))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (fun b => VT m c (Proc.devRef .tc b)))
    (hX := fun c => by
      iintro ⟨HU, -, -, -, Hp, -⟩; imodintro
      isplitl [Hp]; · iexists _; iexact Hp
      iexact HU)
    (hin := fun c => (show _ ⊢ ΦA spec0 c from by unfold ΦA; iintro ⟨Hp, -, Hr⟩; isplitl [Hr] <;> iassumption).trans (hin m c))
    (hout := fun c => (hout m c).trans (by
      rw [Pipeline.ownSems0_none]; unfold ΦA
      iintro ⟨Hr, Hp⟩
      isplitl [Hp]; · iexact Hp
      isplitr; · iempintro
      iexact Hr))
    (htail := fun c Q' => tail_run m c Q')
    (QY := fun c s => ∀ b ∈ restRefsP sig Prefetch.none spec0, s.mem ((c.tc : Thread nD τ).loc b) = VT m c (Proc.devRef .tc b))
    (hY := fun c s' => by
      iintro ⟨-, HU, HSI⟩
      unfold unscopedRestP
      imodintro
      iapply (pointsTo_read_all (restRefsP sig Prefetch.none spec0) (fun b => (c.tc : Thread nD τ).loc b) (fun b => VT m c (Proc.devRef .tc b)) s')
      isplitl [HU] <;> iassumption)
    (hQ := fun s h c => ⟨(h c).1, Pipeline.rest_of_restP Prefetch.none spec0 _ c (fun b => VT m c (Proc.devRef .tc b)) s (fun k => k.elim0) (h c).2.1 (h c).2.2⟩)

end Cert.Kernel.Fr

end
-- ==== Proof.K.Claims.lean ====
/-
  The frame claim from the run: the two argument arrays end as they started. The feature array is an input of the
  region (never written back) and no host line writes it; the label array bypasses the region and no host line writes it.
-/
import proofs.«174582_j2078764171739_1_alg».proof.Proof.K.Region
import Idealize.ShloMosaic.Lib.StableHlo.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (restRefs)

theorem V_arg0 (c : Dev nD) : V m c main_arg0 = m ((c : Thread nD τ).loc main_arg0) := by
  dsimp only [V, V0]; simp only [hostOps0, List.flatten_cons, List.flatten_nil, List.append_nil]; after_results

theorem V_arg1 (c : Dev nD) : V m c main_arg1 = m ((c : Thread nD τ).loc main_arg1) := by
  dsimp only [V, V0]; simp only [hostOps0, List.flatten_cons, List.flatten_nil, List.append_nil]; after_results

/-- The lines after the region do not write the label array. -/
theorem tail_keeps_arg1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem VT_arg1 (c : Dev nD) : VT m c (Proc.devRef .tc main_arg1) = m ((c : Thread nD τ).loc main_arg1) := by
  unfold VT
  rw [StableHlo.after_of_forall_not_mem _ _ tail_keeps_arg1, W2_other m c main_arg1 (by decide) (by decide), V_arg1]

/-- Every weakly fair execution of @main terminates, nothing faulting, with the two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_arg0 m c))),
      ((h c).2 main_arg1 (Pipeline.mem_restRefs_of main_arg1 rfl (by decide))).trans (VT_arg1 m c)⟩) (run_main m ρ)

end Cert.Kernel.Fr

end
-- ==== Proof.KI.Runs.lean ====
/-
  What the three runs of the mining kernel's body share. The grid is 8 × 8 points, walked row by row: point t is
  row-block t / 8 against column-block t % 8. The body resets its two running accumulators where the column-block is 0,
  folds the tile's row maxima and minima into them at every point, and copies them into the two output blocks where the
  column-block is 7. So a point is in one of three cases: first column (reset, no output), middle (neither), last
  column (output). Stated here: the contents the region finds (the host lines before it applied to the launch
  memory), each window's block at a point, the two conditions in closed form over the grid, where the outputs are idle,
  and the memrefs the runs are stated over.
-/
import proofs.«174582_j2078764171739_1_alg».proof.Proof.Gen.KernelIdeal.Launch
import proofs.«174582_j2078764171739_1_alg».proof.Proof.Gen.KernelIdeal.Skeleton
import proofs.«174582_j2078764171739_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the seven host lines before it applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, the lines after it: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two conditions -/

/-- "The column-block is the first": the reset's condition. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "The column-block is the last": the output's condition. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The memrefs the runs are stated over -/

abbrev VO0_6 : View sig .tc .vmem S1024x1 .f32 := (Memref.whole cc0_stg6_0 : Memref sig .tc .vmem S1024x1 .f32).view
abbrev VO0_7 : View sig .tc .vmem S1024x1 .f32 := (Memref.whole cc0_stg7_0 : Memref sig .tc .vmem S1024x1 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- What the launch hands the region beside the windows: the two accumulators owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.KI.RunA.lean ====
/-
  The body's run in the case of a first column-block: the accumulators are reset, then the tile's row maxima and minima folded in; no output is stored. On whole staging memrefs holding the six input blocks, the body runs to its
  continuation with the inputs as they were and each buffer it stored into holding the stores' pieces (found by the run).
-/
import proofs.«174582_j2078764171739_1_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__mine_kernel_eq_skeleton]; unfold cc0__mine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Fr

end
-- ==== Proof.KI.RunB.lean ====
/-
  The body's run in the case of a a middle column-block: the tile's row maxima and minima are folded into the accumulators; no output is stored. On whole staging memrefs holding the six input blocks, the body runs to its
  continuation with the inputs as they were and each buffer it stored into holding the stores' pieces (found by the run).
-/
import proofs.«174582_j2078764171739_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__mine_kernel_eq_skeleton]; unfold cc0__mine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Fr

end
-- ==== Proof.KI.RunC.lean ====
/-
  The body's run in the case of a last column-block: the tile's row maxima and minima are folded in, then the accumulators copied into the two output blocks. On whole staging memrefs holding the six input blocks, the body runs to its
  continuation with the inputs as they were and each buffer it stored into holding the stores' pieces (found by the run).
-/
import proofs.«174582_j2078764171739_1_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) :
    Σ' (L6 L7 LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__mine_kernel_eq_skeleton]; unfold cc0__mine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Fr

end
-- ==== Proof.KI.Frame.lean ====
/-
  The frame of the mining kernel's region. Per case, what the body's stores leave in the two accumulators (and, in the
  last-column case, in the two output blocks), read back from the pieces the runs found; point by point, what the
  accumulators hold (the case the point is in, over what the point before left); the invariant carrying them from
  point to point; the proof data — the arrays as the region finds them, the input blocks in place, the array behind
  the two feature windows held as two half shares, one per window —; and the body obligation at every point.
-/
import proofs.«174582_j2078764171739_1_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's stores into accumulator 0 cover it. -/
theorem scover0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).1 S1024x1.size (by sl_kernel_rfl) y

/-- What case A leaves in accumulator 0. -/
def sout0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).1)

/-- Case A's stores into accumulator 1 cover it. -/
theorem scover0_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.1 S1024x1.size (by sl_kernel_rfl) y

/-- What case A leaves in accumulator 1. -/
def sout0_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

/-- Case B's stores into accumulator 0 cover it. -/
theorem scover0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- What case B leaves in accumulator 0. -/
def sout0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1)

/-- Case B's stores into accumulator 1 cover it. -/
theorem scover0_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What case B leaves in accumulator 1. -/
def sout0_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's stores into accumulator 0 cover it. -/
theorem scover0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What case C leaves in accumulator 0. -/
def sout0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's stores into accumulator 1 cover it. -/
theorem scover0_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What case C leaves in accumulator 1. -/
def sout0_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The last-column case's store into output 6 covers its block. -/
theorem cover0_C_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- What the last-column case leaves in output 6's staging buffer. -/
def out0_C_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)

/-- The last-column case's store into output 7 covers its block. -/
theorem cover0_C_7 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What the last-column case leaves in output 7's staging buffer. -/
def out0_C_7 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Contents nothing consults: an output block at a point that stores nothing into it and does not write it back. -/
def idleOut : Vec F S1024x1 .f32 := VO0_6.read (Elt F) VO0_6.junk

/-! ## What the accumulators and the outputs hold after each point -/

/-- After the body at position `n`: (output 6, output 7, accumulator 0, accumulator 1). -/
def outsAt0 (c : Dev nD) : (n : ℕ) → n < cfg0.N → Vec F S1024x1 .f32 × Vec F S1024x1 .f32 × Vec F S1024x1 .f32 × Vec F S1024x1 .f32
  | 0, hn => (idleOut, idleOut,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by omega)
      else
        (idleOut, idleOut,
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
          sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
          out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)
      else
        (idleOut, idleOut,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 m c t.val t.isLt = (idleOut, idleOut,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (idleOut, idleOut,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (
      out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point what the launch hands over (the accumulators at anything);
    afterwards the accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The proof data -/

/-- The array behind the two feature windows is held as two halves, one per window; every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point: the inputs' buffers hold their blocks; the closed forms say which case the point is in; that
    case's run applies, taking the accumulators at what the point before left (at anything at the first point) and
    giving them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [outsAt0_A m c t h0 h1]
      unfold sout0_A_0 sout0_A_1; (try dsimp only)
      by_cases hz : t.val = 0
      ·
        rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

  · by_cases h1 : t.val % 8 = 7
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [outsAt0_C m c t h0 h1]
      unfold out0_C_6 out0_C_7 sout0_C_0 sout0_C_1; (try dsimp only)
      have hz : t.val ≠ 0 := fun hz => h0 (by rw [hz])
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _)

    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B m c t h0 h1]
      unfold sout0_B_0 sout0_B_1; (try dsimp only)
      have hz : t.val ≠ 0 := fun hz => h0 (by rw [hz])
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Fr

end
-- ==== Proof.KI.Arrays.lean ====
/-
  The arrays behind the region's windows, as the launch hands them over and takes them back. Eight windows stage seven
  buffers: the feature array is read through two windows, so its full share is split into two halves, one per window,
  and joined again when the region ends; every other array goes to its one window whole. Then the contents of the
  unscoped buffers when the region has ended (the two output arrays at what the write-backs left, every other buffer as
  the region found it), and the nineteen host lines after the region run within them.
-/
import proofs.«174582_j2078764171739_1_alg».proof.Proof.KI.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq bigSepL_cons_cons bigSepL_singleton)
open Idealize.ShloMosaic.Pipeline (ΦA restRefs restRefsP unscopedRest unscopedRestP arrBufs Prefetch chain ucRefs)

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- The windows' arrays, one by one, as points-tos of the buffers behind them. -/
theorem arrays_eq_chain (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    ((dats m 0 c).arrays G : sProp 𝕄)
      = iprop((((c : Thread nD τ).loc main_arg0) ↦{fullShare.left} W main_arg0) ∗ (((c : Thread nD τ).loc main_arg0) ↦{fullShare.right} W main_arg0)
          ∗ (((c : Thread nD τ).loc main_v2) ↦{fullShare} W main_v2) ∗ (((c : Thread nD τ).loc main_v3) ↦{fullShare} W main_v3)
          ∗ (((c : Thread nD τ).loc main_v4) ↦{fullShare} W main_v4) ∗ (((c : Thread nD τ).loc main_v5) ↦{fullShare} W main_v5)
          ∗ (((c : Thread nD τ).loc main_v6_0) ↦{fullShare} W main_v6_0) ∗ (((c : Thread nD τ).loc main_v6_1) ↦{fullShare} W main_v6_1)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ,
    share_0, share_1, share_2, share_3, share_4, share_5, share_6, share_7, hG 0, hG 1, hG 2, hG 3, hG 4, hG 5, hG 6, hG 7]

/-- The distinct buffers behind the windows, one by one. -/
theorem arrBufs_eq_chain (c : Dev nD) (W : (b : Ref sig .tc) → Buf (Elt F) ((c : Thread nD τ).loc b)) :
    (arrBufs spec0 c W : sProp 𝕄)
      = iprop((((c : Thread nD τ).loc main_arg0) ↦{fullShare} W main_arg0)
          ∗ (((c : Thread nD τ).loc main_v2) ↦{fullShare} W main_v2) ∗ (((c : Thread nD τ).loc main_v3) ↦{fullShare} W main_v3)
          ∗ (((c : Thread nD τ).loc main_v4) ↦{fullShare} W main_v4) ∗ (((c : Thread nD τ).loc main_v5) ↦{fullShare} W main_v5)
          ∗ (((c : Thread nD τ).loc main_v6_0) ↦{fullShare} W main_v6_0) ∗ (((c : Thread nD τ).loc main_v6_1) ↦{fullShare} W main_v6_1)) := by
  unfold arrBufs
  rw [bigSep_eq_bigSepL_of_eq [main_arg0, main_v2, main_v3, main_v4, main_v5, main_v6_0, main_v6_1] (by decide) (by decide)]
  rfl

/-- The full share of the feature array split between its two windows. -/
theorem arrays_of_bufs (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    (arrBufs spec0 c W : sProp 𝕄) ⊢ (dats m 0 c).arrays G := by
  rw [arrays_eq_chain m c W G hG, arrBufs_eq_chain c W]
  iintro ⟨Ha, H2, H3, H4, H5, H6, H7⟩
  ihave Hs := (pointsTo_share (PosShare.mem_left_op_right fullShare)).1 $$ Ha
  icases Hs with ⟨Hl, Hr⟩
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  iexact H7

/-- And joined again. -/
theorem bufs_of_arrays (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    ((dats m 0 c).arrays G : sProp 𝕄) ⊢ arrBufs spec0 c W := by
  rw [arrays_eq_chain m c W G hG, arrBufs_eq_chain c W]
  iintro ⟨Hl, Hr, H2, H3, H4, H5, H6, H7⟩
  isplitl [Hl Hr]
  · iapply (pointsTo_share (PosShare.mem_left_op_right fullShare)).2
    isplitl [Hl] <;> iassumption
  isplitl [H2]; · iexact H2
  isplitl [H3]; · iexact H3
  isplitl [H4]; · iexact H4
  isplitl [H5]; · iexact H5
  isplitl [H6]; · iexact H6
  iexact H7

/-! ## When the region has ended -/

/-- The unscoped buffers when the region has ended: the two output arrays at what the write-backs left, every other
    buffer as the region found it. -/
def W2 (c : Dev nD) : Valuation τ sig (Elt F) :=
  Function.update (Function.update (V0 m c) (Proc.devRef .tc main_v6_0) ((dats m 0 c).arrAt 6 cfg0.N))
    (Proc.devRef .tc main_v6_1) ((dats m 0 c).arrAt 7 cfg0.N)

/-- And after the nineteen host lines that follow. -/
def VT (c : Dev nD) : Valuation τ sig (Elt F) := StableHlo.after hostOps1 (W2 m c)

theorem W2_v6_1 (c : Dev nD) : W2 m c (Proc.devRef .tc main_v6_1) = (dats m 0 c).arrAt 7 cfg0.N := by
  unfold W2; exact Function.update_self _ _ _

theorem W2_v6_0 (c : Dev nD) : W2 m c (Proc.devRef .tc main_v6_0) = (dats m 0 c).arrAt 6 cfg0.N := by
  unfold W2
  rw [Function.update_of_ne (StableHlo.devRef_ne_of_ne (by decide))]
  exact Function.update_self _ _ _

theorem W2_other (c : Dev nD) (b : Ref sig .tc) (h0 : b ≠ main_v6_0) (h1 : b ≠ main_v6_1) : W2 m c (Proc.devRef .tc b) = V m c b := by
  unfold W2
  rw [Function.update_of_ne (StableHlo.devRef_ne_of_ne h1), Function.update_of_ne (StableHlo.devRef_ne_of_ne h0)]

/-- Every window's array, at the region's end, is what `W2` holds behind it: an input array was never written. -/
theorem arrAt_W2 (c : Dev nD) (w : Fin cfg0.W) : (dats m 0 c).arrAt w cfg0.N = W2 m c (Proc.devRef .tc (Pipeline.arrRef spec0 w)) := by
  match w with
  | ⟨0, _⟩ => exact ((dats m 0 c).arrAt_in 0 rfl _).trans ((A_eq m c 0).trans (W2_other m c main_arg0 (by decide) (by decide)).symm)
  | ⟨1, _⟩ => exact ((dats m 0 c).arrAt_in 1 rfl _).trans ((A_eq m c 1).trans (W2_other m c main_arg0 (by decide) (by decide)).symm)
  | ⟨2, _⟩ => exact ((dats m 0 c).arrAt_in 2 rfl _).trans ((A_eq m c 2).trans (W2_other m c main_v2 (by decide) (by decide)).symm)
  | ⟨3, _⟩ => exact ((dats m 0 c).arrAt_in 3 rfl _).trans ((A_eq m c 3).trans (W2_other m c main_v3 (by decide) (by decide)).symm)
  | ⟨4, _⟩ => exact ((dats m 0 c).arrAt_in 4 rfl _).trans ((A_eq m c 4).trans (W2_other m c main_v4 (by decide) (by decide)).symm)
  | ⟨5, _⟩ => exact ((dats m 0 c).arrAt_in 5 rfl _).trans ((A_eq m c 5).trans (W2_other m c main_v5 (by decide) (by decide)).symm)
  | ⟨6, _⟩ => exact (W2_v6_0 m c).symm
  | ⟨7, _⟩ => exact (W2_v6_1 m c).symm

/-- The lines after the region write no window's array. -/
theorem tail_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem VT_arr (c : Dev nD) (w : Fin cfg0.W) : VT m c (Proc.devRef .tc (Pipeline.arrRef spec0 w)) = (dats m 0 c).arrAt w cfg0.N := by
  unfold VT
  rw [StableHlo.after_of_forall_not_mem _ _ fun op hop => tail_keeps op hop w]
  exact (arrAt_W2 m c w).symm

/-- A buffer that bypasses the region is neither output array. -/
theorem rest_ne (b : Ref sig .tc) (hb : b ∈ restRefs sig spec0) : b ≠ main_v6_0 ∧ b ≠ main_v6_1 := by
  have h := (Finset.mem_sdiff.mp hb).2
  constructor
  · rintro rfl; exact h (Finset.mem_image.mpr ⟨6, Finset.mem_univ _, rfl⟩)
  · rintro rfl; exact h (Finset.mem_image.mpr ⟨7, Finset.mem_univ _, rfl⟩)

theorem rest_W2 (c : Dev nD) :
    (unscopedRest spec0 c (V m c) : sProp 𝕄) = unscopedRest spec0 c (fun b => W2 m c (Proc.devRef .tc b)) := by
  unfold unscopedRest
  exact bigSep_congr fun b hb => by dsimp only; rw [W2_other m c b (rest_ne b hb).1 (rest_ne b hb).2]

set_option backward.isDefEq.respectTransparency.types false in
/-- The lines after the region: from the region's exit — the boundary, the windows' arrays at what the write-backs
    left, the bypassing buffers as the region found them — they run within all the unscoped buffers and hand the arrays
    back unchanged, the bypassing buffers at what the lines leave. -/
theorem tail_run (c : Dev nD) (Q' : PUnit → sProp 𝕄) :
    iprop((iprop((dats m 0 c).arrays ((dats m 0 c).arrAt · cfg0.N) ∗ unscopedRestP (Ix := Unit) (Name := ℕ) (U := UR sig nD τ) (Lvl := ℕ) Prefetch.none spec0 c (fun b => VT m c (Proc.devRef .tc b))) -∗ Q' ⟨⟩)
        ∗ boundary (c.tc : Thread nD τ) ∗ (dats m 0 c).arrays ((dats m 0 c).arrAt · cfg0.N) ∗ unscopedRestP (Ix := Unit) (Name := ℕ) (U := UR sig nD τ) (Lvl := ℕ) Prefetch.none spec0 c (V m c))
      ⊢ wp frame (wpE (Pipeline.defs (fun q => (cfgs q).toPCfg (Val := Elt F)) defs₀) (Variants.lift Variants.none) (c.tc : Thread nD τ) none) Set.univ (chain [StableHlo.seq hostOps1]) Q' := by
  rw [Pipeline.unscopedRestP_none, Pipeline.unscopedRestP_none, rest_W2 m c]
  have e1 : iprop((dats m 0 c).arrays ((dats m 0 c).arrAt · cfg0.N) ∗ unscopedRest (Ix := Unit) (Name := ℕ) (U := UR sig nD τ) (Lvl := ℕ) spec0 c (fun b => W2 m c (Proc.devRef .tc b)))
      ⊢ (StableHlo.held (c.tc : Thread nD τ) (ucRefs τ sig) (W2 m c) : sProp 𝕄) := by
    rw [← Pipeline.unscopedBufs_held (Ix := Unit) (Name := ℕ) (U := UR sig nD τ) (Lvl := ℕ) c (W2 m c),
      Pipeline.unscopedBufs_split₀ cfgs 0 winFacts₀0.arr_unscoped c]
    exact sep_mono (bufs_of_arrays m c (fun b => W2 m c (Proc.devRef .tc b)) _ (arrAt_W2 m c)) .rfl
  have e2 : (StableHlo.held (c.tc : Thread nD τ) (ucRefs τ sig) (StableHlo.after hostOps1 (W2 m c)) : sProp 𝕄)
      ⊢ iprop((dats m 0 c).arrays ((dats m 0 c).arrAt · cfg0.N) ∗ unscopedRest (Ix := Unit) (Name := ℕ) (U := UR sig nD τ) (Lvl := ℕ) spec0 c (fun b => VT m c (Proc.devRef .tc b))) := by
    rw [← Pipeline.unscopedBufs_held (Ix := Unit) (Name := ℕ) (U := UR sig nD τ) (Lvl := ℕ) c (StableHlo.after hostOps1 (W2 m c)),
      Pipeline.unscopedBufs_split₀ cfgs 0 winFacts₀0.arr_unscoped c]
    exact sep_mono (arrays_of_bufs m c (fun b => VT m c (Proc.devRef .tc b)) _ (fun w => (VT_arr m c w).symm)) .rfl
  iintro ⟨Hk, Hbd, Harr, Hrest⟩
  ihave Hu := e1 $$ [Harr Hrest]
  · isplitl [Harr] <;> iassumption
  iapply (Pipeline.wp_seqs_then (fun q => (cfgs q).toPCfg (Val := Elt F)) defs₀ Variants.none c (ucRefs τ sig) [] [hostOps1]
    (fun ops ho op h => by
      simp only [List.mem_cons, List.mem_nil_iff, or_false] at ho; subst ho
      exact Pipeline.sub_ucRefs op ((List.forall_iff_forall_mem.mp hostOps1_sub) op h))
    (fun ops ho op h => by
      simp only [List.mem_cons, List.mem_nil_iff, or_false] at ho; subst ho
      exact (List.forall_iff_forall_mem.mp hostOps1_fresh) op h) (W2 m c)) $$ [Hbd Hu]
  · isplitl [Hbd] <;> iassumption
  iintro ⟨Hbd, Hh⟩
  simp only [List.flatten_cons, List.flatten_nil, List.append_nil, Pipeline.chain_nil]
  rw [show (pure ⟨⟩ : Prog (TpuEff nD τ sig (Elt F) _ .tc) PUnit) = .ret ⟨⟩ from rfl, wp_ret]
  imodintro
  iapply Hk
  iapply e2
  iexact Hh

end Cert.KernelIdeal.Fr

end
-- ==== Proof.KI.Region.lean ====
/-
  The run of @main: the seven host lines, the region, the nineteen host lines after it. The launch hands the region the
  arrays behind its windows — the feature array, staged through two windows, as two half shares — and takes them
  back at what the write-backs left; the lines after the region then run within all the unscoped buffers, the two
  outputs' arrays at their written-back contents and every other buffer as the region found it.
-/
import proofs.«174582_j2078764171739_1_alg».proof.Proof.KI.Arrays

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (ΦA restRefs restRefsP unscopedRest unscopedRestP arrBufs Prefetch PreFacts OwnSemFacts cells launchToks pin chain ucRefs)

set_option backward.isDefEq.respectTransparency.types false in
set_option maxHeartbeats 4000000 in
theorem run_main : θ_run defs (onTc (τ := τ) (main (F := F))) (s₀ m ρ) (Pipeline.FramePost cfgs (dats m) 0 (fun c b => VT m c (Proc.devRef .tc b))) := by
  classical
  have hinj : Function.Injective (cellOf (nD := nD) (τ := τ) (pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) (dats m) () hinj 0 winFacts₀0
    (OwnSemFacts.none spec0) (PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (cells _ hinj) (launchToks _ hinj))
    (hu₀ := by
      iintro Hu; imodintro
      isplitl [Hu]; · iapply (show (ownU _ : sProp 𝕄) ⊢ BI.own (emb₁ (initOf (cells _ hinj) (launchToks _ hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c) _ (fun w => A_eq m c w))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (fun b => VT m c (Proc.devRef .tc b)))
    (hX := fun c => by
      iintro ⟨HU, -, -, -, Hp, -⟩; imodintro
      isplitl [Hp]; · iexists _; iexact Hp
      iexact HU)
    (hin := fun c => (show _ ⊢ ΦA spec0 c from by unfold ΦA; iintro ⟨Hp, -, Hr⟩; isplitl [Hr] <;> iassumption).trans (hin m c))
    (hout := fun c => (hout m c).trans (by
      rw [Pipeline.ownSems0_none]; unfold ΦA
      iintro ⟨Hr, Hp⟩
      isplitl [Hp]; · iexact Hp
      isplitr; · iempintro
      iexact Hr))
    (htail := fun c Q' => tail_run m c Q')
    (QY := fun c s => ∀ b ∈ restRefsP sig Prefetch.none spec0, s.mem ((c.tc : Thread nD τ).loc b) = VT m c (Proc.devRef .tc b))
    (hY := fun c s' => by
      iintro ⟨-, HU, HSI⟩
      unfold unscopedRestP
      imodintro
      iapply (pointsTo_read_all (restRefsP sig Prefetch.none spec0) (fun b => (c.tc : Thread nD τ).loc b) (fun b => VT m c (Proc.devRef .tc b)) s')
      isplitl [HU] <;> iassumption)
    (hQ := fun s h c => ⟨(h c).1, Pipeline.rest_of_restP Prefetch.none spec0 _ c (fun b => VT m c (Proc.devRef .tc b)) s (fun k => k.elim0) (h c).2.1 (h c).2.2⟩)

end Cert.KernelIdeal.Fr

end
-- ==== Proof.KI.Claims.lean ====
/-
  The frame claim from the run: the two argument arrays end as they started. The feature array is an input of the
  region (never written back) and no host line writes it; the label array bypasses the region and no host line writes it.
-/
import proofs.«174582_j2078764171739_1_alg».proof.Proof.KI.Region
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (restRefs)

theorem V_arg0 (c : Dev nD) : V m c main_arg0 = m ((c : Thread nD τ).loc main_arg0) := by
  dsimp only [V, V0]; simp only [hostOps0, List.flatten_cons, List.flatten_nil, List.append_nil]; after_results

theorem V_arg1 (c : Dev nD) : V m c main_arg1 = m ((c : Thread nD τ).loc main_arg1) := by
  dsimp only [V, V0]; simp only [hostOps0, List.flatten_cons, List.flatten_nil, List.append_nil]; after_results

/-- The lines after the region do not write the label array. -/
theorem tail_keeps_arg1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem VT_arg1 (c : Dev nD) : VT m c (Proc.devRef .tc main_arg1) = m ((c : Thread nD τ).loc main_arg1) := by
  unfold VT
  rw [StableHlo.after_of_forall_not_mem _ _ tail_keeps_arg1, W2_other m c main_arg1 (by decide) (by decide), V_arg1]

/-- Every weakly fair execution of @main terminates, nothing faulting, with the two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_arg0 m c))),
      ((h c).2 main_arg1 (Pipeline.mem_restRefs_of main_arg1 rfl (by decide))).trans (VT_arg1 m c)⟩) (run_main m ρ)

end Cert.KernelIdeal.Fr

end
-- ==== Proof.KI.CaseValue.lean ====
/-
  What each case of the body leaves, as values: the first accumulator takes max(previous, the tile's row maxima) and the
  second min(previous, the tile's row minima), "previous" being the reset values (−∞, +∞) in the first-column case and
  what the point before left otherwise; in the last-column case the two output blocks take the accumulators' new contents.
-/
import proofs.«174582_j2078764171739_1_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

theorem sout0_A_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay1 (k0_pay7 x0 x1 x2 x3 x4 x5) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x128) hz, View.ld_unit_zero (S := S1x1024) hz]

theorem sout0_A_1_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay2 (k0_pay8 x0 x1 x2 x3 x4 x5) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x128) hz, View.ld_unit_zero (S := S1x1024) hz]

theorem sout0_B_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay7 x0 x1 x2 x3 x4 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x128) hz, View.ld_unit_zero (S := S1x1024) hz]

theorem sout0_B_1_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay8 x0 x1 x2 x3 x4 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x128) hz, View.ld_unit_zero (S := S1x1024) hz]

theorem sout0_C_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay7 x0 x1 x2 x3 x4 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x128) hz, View.ld_unit_zero (S := S1x1024) hz]

theorem sout0_C_1_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay8 x0 x1 x2 x3 x4 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x128) hz, View.ld_unit_zero (S := S1x1024) hz]

theorem out0_C_6_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay7 x0 x1 x2 x3 x4 x5) xs0 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz, View.readCov_unit_zero (S := S1024x1) _ hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x128) hz, View.ld_unit_zero (S := S1x1024) hz]

theorem out0_C_7_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 x1 : Vec F S1024x128 .f32) (x2 : Vec F S1024x1 .f32) (x3 : Vec F S1x1024 .f32) (x4 : Vec F S1024x1 .i32) (x5 : Vec F S1x1024 .i32) (xs0 xs1 : Vec F S1024x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay8 x0 x1 x2 x3 x4 x5) xs1 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz, View.readCov_unit_zero (S := S1024x1) _ hz]
  simp only [View.readAt_eq_ld, harg2.read_unread, harg3.read_unread, harg4.read_unread, harg5.read_unread, harg6.read_unread, harg7.read_unread, harg10.read_unread, harg11.read_unread, View.ld_unit_zero (S := S1024x1) hz, View.ld_unit_zero (S := S1024x128) hz, View.ld_unit_zero (S := S1x1024) hz]

end Cert.KernelIdeal.Fr

end
-- ==== Proof.KI.AccValue.lean ====
/-
  The two accumulators after each grid point, in closed form by recursion on the point: at a point in the first
  column-block the reset value folded with the tile's result, elsewhere what the point before left folded with the
  tile's result; and in the last column-block the output blocks hold the accumulators. By induction on the point.
-/
import proofs.«174582_j2078764171739_1_alg».proof.Proof.KI.CaseValue

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile's row maxima (over same-label columns) at point `t`, from the point's six input blocks. -/
abbrev tilePos (c : Dev nD) (t : Fin cfg0.N) : FVec F S1024x1 .f32 :=
  k0_pay7 (iblk m c 0 t) (iblk m c 1 t) (iblk m c 2 t) (iblk m c 3 t) (iblk m c 4 t) (iblk m c 5 t)
/-- The tile's row minima (over other-label columns) at point `t`. -/
abbrev tileNeg (c : Dev nD) (t : Fin cfg0.N) : FVec F S1024 .f32 :=
  k0_pay8 (iblk m c 0 t) (iblk m c 1 t) (iblk m c 2 t) (iblk m c 3 t) (iblk m c 4 t) (iblk m c 5 t)

/-- The accumulators after point `n`. -/
def accAt (c : Dev nD) : (n : ℕ) → n < cfg0.N → Vec F S1024x1 .f32 × Vec F S1024x1 .f32
  | 0, h => (k0_pay1 (tilePos m c ⟨0, h⟩) (k0_pay3 (F := F)), k0_pay2 (tileNeg m c ⟨0, h⟩) (k0_pay4 (F := F)))
  | n + 1, h =>
    if (n + 1) % 8 = 0 then (k0_pay1 (tilePos m c ⟨n + 1, h⟩) (k0_pay3 (F := F)), k0_pay2 (tileNeg m c ⟨n + 1, h⟩) (k0_pay4 (F := F)))
    else (k0_pay1 (tilePos m c ⟨n + 1, h⟩) (accAt c n (Nat.lt_of_succ_lt h)).1, k0_pay2 (tileNeg m c ⟨n + 1, h⟩) (accAt c n (Nat.lt_of_succ_lt h)).2)

theorem accAt_zero (c : Dev nD) (h : 0 < cfg0.N) :
    accAt m c 0 h = (k0_pay1 (tilePos m c ⟨0, h⟩) (k0_pay3 (F := F)), k0_pay2 (tileNeg m c ⟨0, h⟩) (k0_pay4 (F := F))) := rfl

theorem accAt_reset (c : Dev nD) (n : ℕ) (h : n + 1 < cfg0.N) (h0 : (n + 1) % 8 = 0) :
    accAt m c (n + 1) h = (k0_pay1 (tilePos m c ⟨n + 1, h⟩) (k0_pay3 (F := F)), k0_pay2 (tileNeg m c ⟨n + 1, h⟩) (k0_pay4 (F := F))) := by
  rw [accAt]; exact if_pos h0

theorem accAt_step (c : Dev nD) (n : ℕ) (h : n + 1 < cfg0.N) (h0 : ¬(n + 1) % 8 = 0) :
    accAt m c (n + 1) h = (k0_pay1 (tilePos m c ⟨n + 1, h⟩) (accAt m c n (Nat.lt_of_succ_lt h)).1, k0_pay2 (tileNeg m c ⟨n + 1, h⟩) (accAt m c n (Nat.lt_of_succ_lt h)).2) := by
  rw [accAt]; exact if_neg h0

/-- What the frame's point-by-point contents hold in the two accumulators IS that recursion. -/
theorem outsAt_acc (c : Dev nD) : ∀ (n : ℕ) (h : n < cfg0.N),
    (outsAt0 m c n h).2.2.1 = (accAt m c n h).1 ∧ (outsAt0 m c n h).2.2.2 = (accAt m c n h).2
  | 0, h => by
    rw [outsAt0_A m c ⟨0, h⟩ rfl (by dsimp only; omega), accAt_zero]
    dsimp only
    rw [sout0_A_0_eq, sout0_A_1_eq]
    exact ⟨rfl, rfl⟩
  | n + 1, h => by
    have ih := outsAt_acc c n (Nat.lt_of_succ_lt h)
    by_cases h0 : (n + 1) % 8 = 0
    · have h1 : ¬(n + 1) % 8 = 7 := by omega
      rw [outsAt0_A m c ⟨n + 1, h⟩ h0 h1, accAt_reset m c n h h0]
      dsimp only
      rw [sout0_A_0_eq, sout0_A_1_eq]
      exact ⟨rfl, rfl⟩
    · by_cases h1 : (n + 1) % 8 = 7
      · rw [outsAt0_C m c ⟨n + 1, h⟩ h0 h1, accAt_step m c n h h0]
        dsimp only
        rw [sout0_C_0_eq, sout0_C_1_eq]
        show k0_pay1 _ (outsAt0 m c n _).2.2.1 = k0_pay1 _ (accAt m c n _).1 ∧ k0_pay2 _ (outsAt0 m c n _).2.2.2 = k0_pay2 _ (accAt m c n _).2
        rw [ih.1, ih.2]
        exact ⟨rfl, rfl⟩
      · rw [outsAt0_B m c ⟨n + 1, h⟩ h0 h1, accAt_step m c n h h0]
        dsimp only
        rw [sout0_B_0_eq, sout0_B_1_eq]
        show k0_pay1 _ (outsAt0 m c n _).2.2.1 = k0_pay1 _ (accAt m c n _).1 ∧ k0_pay2 _ (outsAt0 m c n _).2.2.2 = k0_pay2 _ (accAt m c n _).2
        rw [ih.1, ih.2]
        exact ⟨rfl, rfl⟩

/-- In the last column-block the two output blocks hold the accumulators' new contents. -/
theorem outsAt_out (c : Dev nD) (t : Fin cfg0.N) (h1 : t.val % 8 = 7) :
    (outsAt0 m c t.val t.isLt).1 = (accAt m c t.val t.isLt).1 ∧ (outsAt0 m c t.val t.isLt).2.1 = (accAt m c t.val t.isLt).2 := by
  have h0 : ¬t.val % 8 = 0 := by omega
  have ha := outsAt_acc m c t.val t.isLt
  rw [← ha.1, ← ha.2, outsAt0_C m c t h0 h1]
  dsimp only
  rw [out0_C_6_eq, out0_C_7_eq, sout0_C_0_eq, sout0_C_1_eq]
  exact ⟨rfl, rfl⟩

end Cert.KernelIdeal.Fr

end
-- ==== Proof.PayloadValue.lean ====
/-
  The kernel body's pure arithmetic read at one index, on the extended reals: each stored or carried
  value of the tile step as an explicit formula in the entries of the loaded blocks.
-/
import proofs.«174582_j2078764171739_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.PayValue

open Cert.KernelIdeal Cert.KernelIdeal.Gen Idealize.ShloMosaic Idealize.ShloMosaic.ValueIdx

/-! ## Column forms of the layout operations

A vector of length a viewed as a column [a, 1], and a column [a, 1] repeated along b columns, read at an
index given by coordinates. -/

/-- A vector of length a cast to the column shape [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The accumulator updates and the initial values -/

/-- The running maximum is updated entrywise: the old accumulator against the tile's row maxima. -/
theorem pay1_apply (v34 : FVec Ideal S1024x1 .f32) (v37 : Vec Ideal S1024x1 .f32) (j : S1024x1.Idx) :
    k0_pay1 (F := Ideal) v34 v37 j = max (v37 j) (v34 j) := by
  unfold k0_pay1
  rw [shapeCast_self]
  rfl

/-- The maximum accumulator starts at the pattern of −∞. -/
theorem pay3_apply (j : S1024x1.Idx) : k0_pay3 (F := Ideal) j = Ideal.ofBits .f32 0xFF800000#32 := by
  unfold k0_pay3
  rw [shapeCast_self]
  rfl

/-- The minimum accumulator starts at the pattern of +∞. -/
theorem pay4_apply (j : S1024x1.Idx) : k0_pay4 (F := Ideal) j = Ideal.ofBits .f32 0x7F800000#32 := by
  unfold k0_pay4
  rw [shapeCast_self]
  rfl

/-- The running minimum is updated entrywise: the old accumulator against the tile's row minima,
    which arrive as a vector and are viewed as a column. -/
theorem pay2_apply (v35 : FVec Ideal S1024 .f32) (v42 : Vec Ideal S1024x1 .f32) (r : Fin 1024) :
    k0_pay2 (F := Ideal) v35 v42 (ix2 r 0) = min (v42 (ix2 r 0)) (v35 (ix1 r)) := by
  unfold k0_pay2
  rw [shapeCast_self]
  refine (minimumf_apply _ _ _).trans ?_
  exact congrArg (min (v42 (ix2 r 0))) (shapeCast_a_a1_apply v35 _ r 0)

/-! ## The label mask -/

/-- The mask at (r, c) compares the label of row r of the row block with the label of row c of the
    column block. -/
theorem pay6_apply (t0 : Vec Ideal S1024x1 .i32) (t1 : Vec Ideal S1x1024 .i32) (r c : Fin 1024) :
    k0_pay6 (F := Ideal) t0 t1 (ix2 r c) = IntOp.cmpi .eq (t0 (ix2 r 0)) (t1 (ix2 0 c)) := by
  unfold k0_pay6
  rw [shapeCast_self, shapeCast_self]
  show IntOp.cmpi .eq (broadcastTo S1024x1024 t0 broadcasts_S1024x1_S1024x1024 (ix2 r c))
      (broadcastTo S1024x1024 t1 broadcasts_S1x1024_S1024x1024 (ix2 r c)) = _
  rw [broadcastTo_a1_ab_apply t0 _ r c, broadcastTo_1b_ab_apply t1 _ r c]

/-! ## The distance tile

The inner products of the tile are one matrix product of the row block with the TRANSPOSED column
block, contracted over the 128 features; on the extended reals the narrowing of the operands is the
identity and the accumulator is zero, so entry (r, c) is the plain sum over the features. -/

/-- On the row block's axis 0 (not contracted) the left operand's index follows the output row. -/
theorem lhsIdx_row (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl

/-- On axis 1 (the contracted one) it is the contraction coordinate. -/
theorem lhsIdx_feat (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q

/-- The right operand's axis 0 is the contracted one … -/
theorem rhsIdx_feat (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q

/-- … and its axis 1 follows the output column. -/
theorem rhsIdx_col (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- Entry (r, c) of the product is the inner product of row r of the row block with row c of the
    column block. -/
theorem matmul_tile_apply (x0 x1 : Vec Ideal S1024x128 .f32) (r c : Fin 1024) :
    matmul (F := Ideal) dot_S1024x128_S128x1024_S1024x1024_1_0_0_1_n_n none
        (truncf .bf16 x0 bitsLt_bf16_f32)
        (transpose S128x1024 [1, 0] (truncf .bf16 x1 bitsLt_bf16_f32) transposes_S1024x128_p1_0_S128x1024)
        (constant S1024x1024 .f32 0x00000000#32) (ix2 r c)
      = ∑ k : Fin 128, x0 (ix2 r k) * x1 (ix2 c k) := by
  refine (Ideal.matmul_constant_zero_apply dot_S1024x128_S128x1024_S1024x1024_1_0_0_1_n_n none _ _ (ix2 r c)).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 r c)
      ((contrEquiv1 dot_S1024x128_S128x1024_S1024x1024_1_0_0_1_n_n 128 rfl rfl).symm k) = ix2 r k :=
    funext fun a => Fin.ext (by
      match a with
      | ⟨0, _⟩ => exact lhsIdx_row _ _
      | ⟨1, _⟩ => exact (lhsIdx_feat _ _).trans hk)
  have er : dot_S1024x128_S128x1024_S1024x1024_1_0_0_1_n_n.rhsIdx (ix2 r c)
      ((contrEquiv1 dot_S1024x128_S128x1024_S1024x1024_1_0_0_1_n_n 128 rfl rfl).symm k) = ix2 k c :=
    funext fun a => Fin.ext (by
      match a with
      | ⟨0, _⟩ => exact (rhsIdx_feat _ _).trans hk
      | ⟨1, _⟩ => exact rhsIdx_col _ _)
  rw [el, er]
  have et : transpose S128x1024 [1, 0] (truncf (F := Ideal) (φ := .f32) .bf16 x1 bitsLt_bf16_f32)
        transposes_S1024x128_p1_0_S128x1024 (ix2 k c)
      = x1 (ix2 c k) :=
    transpose_ix2_apply (truncf (F := Ideal) (φ := .f32) .bf16 x1 bitsLt_bf16_f32)
      transposes_S1024x128_p1_0_S128x1024 k c
  exact congrArg (x0 (ix2 r k) * ·) et

/-- The clipped distance of row r of the row block and row c of the column block. -/
theorem pay5_apply (x0 x1 : Vec Ideal S1024x128 .f32) (s0 : Vec Ideal S1024x1 .f32) (s1 : Vec Ideal S1x1024 .f32)
    (r c : Fin 1024) :
    k0_pay5 (F := Ideal) x0 x1 s0 s1 (ix2 r c)
      = Ideal.sqrt (max (Ideal.ofBits .f32 0x2B8CBCCC#32)
          (s0 (ix2 r 0) + s1 (ix2 0 c)
            - Ideal.ofBits .f32 0x40000000#32 * ∑ k : Fin 128, x0 (ix2 r k) * x1 (ix2 c k))) := by
  have e1 : broadcastTo S1024x1024 (shapeCast S1024x1 s0 shapeCasts_S1024x1_S1024x1) broadcasts_S1024x1_S1024x1024 (ix2 r c)
      = s0 (ix2 r 0) :=
    (broadcastTo_a1_ab_apply _ _ r c).trans (congrFun (shapeCast_self s0 _) _)
  have e2 : broadcastTo S1024x1024 (shapeCast S1x1024 s1 shapeCasts_S1x1024_S1x1024) broadcasts_S1x1024_S1024x1024 (ix2 r c)
      = s1 (ix2 0 c) :=
    (broadcastTo_1b_ab_apply _ _ r c).trans (congrFun (shapeCast_self s1 _) _)
  have e3 := matmul_tile_apply x0 x1 r c
  show Ideal.sqrt (max (Ideal.ofBits .f32 0x2B8CBCCC#32)
      (broadcastTo S1024x1024 (shapeCast S1024x1 s0 shapeCasts_S1024x1_S1024x1) broadcasts_S1024x1_S1024x1024 (ix2 r c)
        + broadcastTo S1024x1024 (shapeCast S1x1024 s1 shapeCasts_S1x1024_S1x1024) broadcasts_S1x1024_S1024x1024 (ix2 r c)
        - Ideal.ofBits .f32 0x40000000#32
          * matmul (F := Ideal) dot_S1024x128_S128x1024_S1024x1024_1_0_0_1_n_n none
              (truncf .bf16 x0 bitsLt_bf16_f32)
              (transpose S128x1024 [1, 0] (truncf .bf16 x1 bitsLt_bf16_f32) transposes_S1024x128_p1_0_S128x1024)
              (constant S1024x1024 .f32 0x00000000#32) (ix2 r c))) = _
  rw [e1, e2, e3]

/-! ## The row reductions of the tile

A reduction along the columns, read at row r, is the fold of the operation over the 1024 column
coordinates: the source index over row r with column c inserted is (r, c). -/

/-- The source index of the column reduction over row r at column c is (r, c). -/
theorem lift_row (r c : Fin 1024) : reduces_S1024x1024_S1024.lift (ix1 r) c = ix2 r c :=
  funext fun a => Fin.ext (by
    match a with
    | ⟨0, _⟩ => rfl
    | ⟨1, _⟩ => rfl)

/-- A minimum-reduction over one axis, read on the extended reals: the fold of min from the
    accumulator's value over that axis's coordinates. -/
theorem multiReduction_minimumf_single {s t : Shape} {φ : FTy} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The masked distance whose row maximum the tile takes: the distance where the labels agree, −∞
    elsewhere. -/
theorem masked_pos_apply (x0 x1 : Vec Ideal S1024x128 .f32) (s0 : Vec Ideal S1024x1 .f32) (s1 : Vec Ideal S1x1024 .f32)
    (t0 : Vec Ideal S1024x1 .i32) (t1 : Vec Ideal S1x1024 .i32) (r c : Fin 1024) :
    select (k0_pay6 (F := Ideal) t0 t1) (k0_pay5 (F := Ideal) x0 x1 s0 s1)
        (broadcast S1024x1024 (Scalar.ofBits (F := Ideal) .f32 0xFF800000#32)) (ix2 r c)
      = Scalar.select (IntOp.cmpi .eq (t0 (ix2 r 0)) (t1 (ix2 0 c)))
          (Ideal.sqrt (max (Ideal.ofBits .f32 0x2B8CBCCC#32)
            (s0 (ix2 r 0) + s1 (ix2 0 c)
              - Ideal.ofBits .f32 0x40000000#32 * ∑ k : Fin 128, x0 (ix2 r k) * x1 (ix2 c k))))
          (Ideal.ofBits .f32 0xFF800000#32) := by
  refine (select_apply _ _ _ _).trans ?_
  rw [pay6_apply, pay5_apply]
  rfl

/-- The masked distance whose row minimum the tile takes: +∞ where the labels agree, the distance
    elsewhere. -/
theorem masked_neg_apply (x0 x1 : Vec Ideal S1024x128 .f32) (s0 : Vec Ideal S1024x1 .f32) (s1 : Vec Ideal S1x1024 .f32)
    (t0 : Vec Ideal S1024x1 .i32) (t1 : Vec Ideal S1x1024 .i32) (r c : Fin 1024) :
    select (k0_pay6 (F := Ideal) t0 t1) (broadcast S1024x1024 (Scalar.ofBits (F := Ideal) .f32 0x7F800000#32))
        (k0_pay5 (F := Ideal) x0 x1 s0 s1) (ix2 r c)
      = Scalar.select (IntOp.cmpi .eq (t0 (ix2 r 0)) (t1 (ix2 0 c)))
          (Ideal.ofBits .f32 0x7F800000#32)
          (Ideal.sqrt (max (Ideal.ofBits .f32 0x2B8CBCCC#32)
            (s0 (ix2 r 0) + s1 (ix2 0 c)
              - Ideal.ofBits .f32 0x40000000#32 * ∑ k : Fin 128, x0 (ix2 r k) * x1 (ix2 c k)))) := by
  refine (select_apply _ _ _ _).trans ?_
  rw [pay6_apply, pay5_apply]
  rfl

/-- The tile's hardest positive of row r: the maximum over the tile's columns, from −∞, of the
    masked distances. -/
theorem pay7_apply (x0 x1 : Vec Ideal S1024x128 .f32) (s0 : Vec Ideal S1024x1 .f32) (s1 : Vec Ideal S1x1024 .f32)
    (t0 : Vec Ideal S1024x1 .i32) (t1 : Vec Ideal S1x1024 .i32) (r : Fin 1024) :
    k0_pay7 (F := Ideal) x0 x1 s0 s1 t0 t1 (ix2 r 0)
      = (Finset.univ : Finset (Fin 1024)).fold max (Ideal.ofBits .f32 0xFF800000#32) (fun c =>
          Scalar.select (IntOp.cmpi .eq (t0 (ix2 r 0)) (t1 (ix2 0 c)))
            (Ideal.sqrt (max (Ideal.ofBits .f32 0x2B8CBCCC#32)
              (s0 (ix2 r 0) + s1 (ix2 0 c)
                - Ideal.ofBits .f32 0x40000000#32 * ∑ k : Fin 128, x0 (ix2 r k) * x1 (ix2 c k))))
            (Ideal.ofBits .f32 0xFF800000#32)) := by
  unfold k0_pay7
  refine (shapeCast_a_a1_apply _ shapeCasts_S1024_S1024x1 r 0).trans ?_
  refine (Ideal.multiReduction_maximumf_single (φ := .f32) _ 0xFF800000#32 reduces_S1024x1024_S1024 (.inl rfl) rfl
    (ix1 r)).trans ?_
  refine Finset.fold_congr fun c _ => ?_
  show select (k0_pay6 (F := Ideal) t0 t1) (k0_pay5 (F := Ideal) x0 x1 s0 s1)
      (broadcast S1024x1024 (Scalar.ofBits (F := Ideal) .f32 0xFF800000#32)) (reduces_S1024x1024_S1024.lift (ix1 r) c) = _
  rw [lift_row r c]
  exact masked_pos_apply x0 x1 s0 s1 t0 t1 r c

/-- The tile's hardest negative of row r: the minimum over the tile's columns, from +∞, of the
    masked distances. -/
theorem pay8_apply (x0 x1 : Vec Ideal S1024x128 .f32) (s0 : Vec Ideal S1024x1 .f32) (s1 : Vec Ideal S1x1024 .f32)
    (t0 : Vec Ideal S1024x1 .i32) (t1 : Vec Ideal S1x1024 .i32) (r : Fin 1024) :
    k0_pay8 (F := Ideal) x0 x1 s0 s1 t0 t1 (ix1 r)
      = (Finset.univ : Finset (Fin 1024)).fold min (Ideal.ofBits .f32 0x7F800000#32) (fun c =>
          Scalar.select (IntOp.cmpi .eq (t0 (ix2 r 0)) (t1 (ix2 0 c)))
            (Ideal.ofBits .f32 0x7F800000#32)
            (Ideal.sqrt (max (Ideal.ofBits .f32 0x2B8CBCCC#32)
              (s0 (ix2 r 0) + s1 (ix2 0 c)
                - Ideal.ofBits .f32 0x40000000#32 * ∑ k : Fin 128, x0 (ix2 r k) * x1 (ix2 c k))))) := by
  unfold k0_pay8
  refine (multiReduction_minimumf_single (φ := .f32) _ 0x7F800000#32 reduces_S1024x1024_S1024 (.inl rfl) rfl
    (ix1 r)).trans ?_
  refine Finset.fold_congr fun c _ => ?_
  show select (k0_pay6 (F := Ideal) t0 t1) (broadcast S1024x1024 (Scalar.ofBits (F := Ideal) .f32 0x7F800000#32))
      (k0_pay5 (F := Ideal) x0 x1 s0 s1) (reduces_S1024x1024_S1024.lift (ix1 r) c) = _
  rw [lift_row r c]
  exact masked_neg_apply x0 x1 s0 s1 t0 t1 r c

end Cert.KernelIdeal.PayValue

end
-- ==== Proof.Spec.lean ====
/-
  What the mining kernel and its reference both compute, as functions of the argument arrays, index by index on
  the extended reals. `x` holds 8192 rows of 128 features, `s i` the squared norm of row `i`, `t i` its label.
  The distance of rows `i` and `j` is √ max(ε, s i + s j − 2·⟨x_i, x_j⟩); row `i`'s hardest positive is the largest
  distance to a row of the same label (the maximum taken from −∞ over all 8192 columns), its hardest negative the
  smallest distance to a row of another label (the minimum taken from +∞). The literals are kept as the bit
  patterns both programs print; none is evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The squared norm of row `r`, summed from the zero both programs start their row sums from. -/
def sqn (x : (⟨2, ![8192, 128]⟩ : Shape).Idx → EReal) (r : Fin 8192) : EReal :=
  Ideal.ofBits .f32 0x00000000#32 + ∑ k : Fin 128, x (ix2 r k) * x (ix2 r k)

/-- The inner product of rows `i` and `j`. -/
def inner (x : (⟨2, ![8192, 128]⟩ : Shape).Idx → EReal) (i j : Fin 8192) : EReal :=
  ∑ k : Fin 128, x (ix2 i k) * x (ix2 j k)

/-- The clipped Euclidean distance of rows `i` and `j`. -/
def dist (s : Fin 8192 → EReal) (x : (⟨2, ![8192, 128]⟩ : Shape).Idx → EReal) (i j : Fin 8192) : EReal :=
  Ideal.sqrt (max (Ideal.ofBits .f32 0x2B8CBCCC#32) (s i + s j - Ideal.ofBits .f32 0x40000000#32 * inner x i j))

/-- The distance where the labels agree, −∞ elsewhere. -/
def pos (s : Fin 8192 → EReal) (x : (⟨2, ![8192, 128]⟩ : Shape).Idx → EReal) (t : Fin 8192 → BitVec 32) (i j : Fin 8192) : EReal :=
  Scalar.select (IntOp.cmpi .eq (t i) (t j)) (dist s x i j) (Ideal.ofBits .f32 0xFF800000#32)

/-- +∞ where the labels agree, the distance elsewhere. -/
def neg (s : Fin 8192 → EReal) (x : (⟨2, ![8192, 128]⟩ : Shape).Idx → EReal) (t : Fin 8192 → BitVec 32) (i j : Fin 8192) : EReal :=
  Scalar.select (IntOp.cmpi .eq (t i) (t j)) (Ideal.ofBits .f32 0x7F800000#32) (dist s x i j)

/-- Row `i`'s hardest positive: the maximum over every column, from −∞. -/
def hardPos (s : Fin 8192 → EReal) (x : (⟨2, ![8192, 128]⟩ : Shape).Idx → EReal) (t : Fin 8192 → BitVec 32) (i : Fin 8192) : EReal :=
  (Finset.univ : Finset (Fin 8192)).fold max (Ideal.ofBits .f32 0xFF800000#32) (pos s x t i)

/-- Row `i`'s hardest negative: the minimum over every column, from +∞. -/
def hardNeg (s : Fin 8192 → EReal) (x : (⟨2, ![8192, 128]⟩ : Shape).Idx → EReal) (t : Fin 8192 → BitVec 32) (i : Fin 8192) : EReal :=
  (Finset.univ : Finset (Fin 8192)).fold min (Ideal.ofBits .f32 0x7F800000#32) (neg s x t i)

end Cert.Spec

end
-- ==== Proof.KI.BlockValue.lean ====
/-
  The tile step's results in terms of the argument arrays: the six blocks the body loads at a grid
  point are rows of the feature array, of its row sums of squares and of the labels, so the tile's
  row maxima and minima are the folds, over the tile's 1024 columns, of the specification's masked
  distances between global rows.
-/
import proofs.«174582_j2078764171739_1_alg».proof.Proof.KI.Runs
import proofs.«174582_j2078764171739_1_alg».proof.Proof.PayloadValue
import proofs.«174582_j2078764171739_1_alg».proof.Proof.Spec
import Idealize.ShloMosaic.Lib.StableHlo.Run
import Idealize.ShloMosaic.Lib.IdealHost
import Idealize.ShloMosaic.Lib.Pipeline.Value

set_option maxRecDepth 16384

noncomputable section

namespace Cert.KernelIdeal.BlockValue

open Cert.KernelIdeal Cert.KernelIdeal.Gen Cert.KernelIdeal.Fr Idealize.ShloMosaic Idealize.ShloMosaic.TcCoe
  Idealize.SL.Sem Idealize.ShloMosaic.ValueIdx

variable (m : (ℓ : Loc nD τ sig) → Buf (Elt Ideal) ℓ)

/-! ## The arrays the region finds -/

/-- The feature array as launched. -/
abbrev X (c : Dev nD) : S8192x128.Idx → EReal := m ((c.tc : Thread nD τ).loc main_arg0)
/-- The labels as launched. -/
abbrev Lab (c : Dev nD) : S8192.Idx → BitVec 32 := m ((c.tc : Thread nD τ).loc main_arg1)
/-- The row sums of squares as the host lines before the region compute them. -/
abbrev rowSq (c : Dev nD) : S8192.Idx → EReal :=
  Host.reduceAdd (F := Ideal) (mulf (X m c) (X m c)) (constant (F := Ideal) S_ .f32 0x00000000#32)
    reducesTo_S8192x128_S8192_d1 h_S_

/-- The host lines before the region do not write the feature array. -/
theorem V_arg0 (c : Dev nD) : (V m c main_arg0 : S8192x128.Idx → EReal) = X m c := by
  dsimp only [V, V0]
  simp only [hostOps0, List.flatten_cons, List.flatten_nil, List.append_nil]
  after_results

/-- The row sums of squares as a column. -/
theorem V_v2 (c : Dev nD) : (V m c main_v2 : S8192x1.Idx → EReal)
    = shapeCast S8192x1 (rowSq m c) shapeCasts_S8192_S8192x1 := by
  dsimp only [V, V0]
  simp only [hostOps0, List.flatten_cons, List.flatten_nil, List.append_nil]
  after_results
  rfl

/-- The row sums of squares as a row. -/
theorem V_v3 (c : Dev nD) : (V m c main_v3 : S1x8192.Idx → EReal)
    = shapeCast S1x8192 (rowSq m c) shapeCasts_S8192_S1x8192 := by
  dsimp only [V, V0]
  simp only [hostOps0, List.flatten_cons, List.flatten_nil, List.append_nil]
  after_results
  rfl

/-- The labels as a column. -/
theorem V_v4 (c : Dev nD) : (V m c main_v4 : S8192x1.Idx → BitVec 32)
    = shapeCast S8192x1 (Lab m c) shapeCasts_S8192_S8192x1 := by
  dsimp only [V, V0]
  simp only [hostOps0, List.flatten_cons, List.flatten_nil, List.append_nil]
  after_results
  rfl

/-- The labels as a row. -/
theorem V_v5 (c : Dev nD) : (V m c main_v5 : S1x8192.Idx → BitVec 32)
    = shapeCast S1x8192 (Lab m c) shapeCasts_S8192_S1x8192 := by
  dsimp only [V, V0]
  simp only [hostOps0, List.flatten_cons, List.flatten_nil, List.append_nil]
  after_results
  rfl

/-! ## Those arrays at an index -/

/-- The host's row sum of squares of row i is the specification's squared norm (the zero it starts
    from kept as its pattern). -/
theorem rowSq_apply (c : Dev nD) (i : Fin 8192) : rowSq m c (ix1 i) = Cert.Spec.sqn (X m c) i := by
  have hR : S8192x128.Reduces [1] S8192 := by decide
  refine (hostReduceAdd_apply (mulf (F := Ideal) (φ := .f32) (X m c) (X m c))
    (constant (F := Ideal) S_ .f32 0x00000000#32) reducesTo_S8192x128_S8192_d1 h_S_ (ix1 i)).trans ?_
  refine (Ideal.hostReduceAdd_single reducesTo_S8192x128_S8192_d1 hR
    (mulf (F := Ideal) (φ := .f32) (X m c) (X m c)) _ (ix1 i)).trans ?_
  unfold Cert.Spec.sqn
  refine congrArg (Ideal.ofBits .f32 0x00000000#32 + ·) (Finset.sum_congr rfl fun k _ => ?_)
  have hl : hR.lift (ix1 i) k = ix2 i k := funext fun a => Fin.ext (by
    match a with
    | ⟨0, _⟩ => rfl
    | ⟨1, _⟩ => rfl)
  rw [hl]
  rfl

theorem V_v2_apply (c : Dev nD) (i : Fin 8192) :
    (V m c main_v2 : S8192x1.Idx → EReal) (ix2 i 0) = Cert.Spec.sqn (X m c) i := by
  rw [V_v2]
  exact (PayValue.shapeCast_a_a1_apply (rowSq m c) shapeCasts_S8192_S8192x1 i 0).trans (rowSq_apply m c i)

theorem V_v3_apply (c : Dev nD) (j : Fin 8192) :
    (V m c main_v3 : S1x8192.Idx → EReal) (ix2 0 j) = Cert.Spec.sqn (X m c) j := by
  rw [V_v3]
  exact (shapeCast_a_1a_apply (rowSq m c) shapeCasts_S8192_S1x8192 0 j).trans (rowSq_apply m c j)

theorem V_v4_apply (c : Dev nD) (i : Fin 8192) :
    (V m c main_v4 : S8192x1.Idx → BitVec 32) (ix2 i 0) = Lab m c (ix1 i) := by
  rw [V_v4]
  exact PayValue.shapeCast_a_a1_apply (Lab m c) shapeCasts_S8192_S8192x1 i 0

theorem V_v5_apply (c : Dev nD) (j : Fin 8192) :
    (V m c main_v5 : S1x8192.Idx → BitVec 32) (ix2 0 j) = Lab m c (ix1 j) := by
  rw [V_v5]
  exact shapeCast_a_1a_apply (Lab m c) shapeCasts_S8192_S1x8192 0 j

/-! ## The grid: point t is row block t / 8 against column block t % 8 -/

theorem t_lt (t : Fin cfg0.N) : t.val < 64 := Nat.lt_of_lt_of_eq t.isLt Gen.N_0

/-- The global row under row r of the row block at point t. -/
def rowOf (t : Fin cfg0.N) (r : Fin 1024) : Fin 8192 :=
  ⟨t.val / 8 * 1024 + r.val, by have := t_lt t; have := r.isLt; omega⟩

/-- The global row under row cl of the column block at point t. -/
def colOf (t : Fin cfg0.N) (cl : Fin 1024) : Fin 8192 :=
  ⟨t.val % 8 * 1024 + cl.val, by have := cl.isLt; omega⟩

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = 0 ∧ win0_3.index t 1 = t.val % 8 :=
  (by decide +kernel : ∀ t : Fin grid0.N, win0_3.index t 0 = 0 ∧ win0_3.index t 1 = t.val % 8)
theorem idx4 : ∀ t : Fin cfg0.N, win0_4.index t 0 = t.val / 8 ∧ win0_4.index t 1 = 0 :=
  (by decide +kernel : ∀ t : Fin grid0.N, win0_4.index t 0 = t.val / 8 ∧ win0_4.index t 1 = 0)
theorem idx5 : ∀ t : Fin cfg0.N, win0_5.index t 0 = 0 ∧ win0_5.index t 1 = t.val % 8 :=
  (by decide +kernel : ∀ t : Fin grid0.N, win0_5.index t 0 = 0 ∧ win0_5.index t 1 = t.val % 8)

/-! ## The six blocks, read off the arrays the region finds -/

theorem blk0_apply (c : Dev nD) (t : Fin cfg0.N) (r : Fin 1024) (k : Fin 128) :
    (iblk m c 0 t : Vec Ideal S1024x128 .f32) (ix2 r k)
      = (V m c main_arg0 : S8192x128.Idx → EReal) (ix2 (rowOf t r) k) := by
  unfold iblk
  rw [View.read_apply]
  show (V m c main_arg0 : S8192x128.Idx → EReal) _ = _
  refine congrArg (V m c main_arg0 : S8192x128.Idx → EReal) (funext fun a => Fin.ext ?_)
  match a with
  | ⟨0, _⟩ =>
    show win0_0.index t 0 * 1024 + 1 * r.val = t.val / 8 * 1024 + r.val
    rw [(idx0 t).1]; omega
  | ⟨1, _⟩ =>
    show win0_0.index t 1 * 128 + 1 * k.val = k.val
    rw [(idx0 t).2]; omega

theorem blk1_apply (c : Dev nD) (t : Fin cfg0.N) (cl : Fin 1024) (k : Fin 128) :
    (iblk m c 1 t : Vec Ideal S1024x128 .f32) (ix2 cl k)
      = (V m c main_arg0 : S8192x128.Idx → EReal) (ix2 (colOf t cl) k) := by
  unfold iblk
  rw [View.read_apply]
  show (V m c main_arg0 : S8192x128.Idx → EReal) _ = _
  refine congrArg (V m c main_arg0 : S8192x128.Idx → EReal) (funext fun a => Fin.ext ?_)
  match a with
  | ⟨0, _⟩ =>
    show win0_1.index t 0 * 1024 + 1 * cl.val = t.val % 8 * 1024 + cl.val
    rw [(idx1 t).1]; omega
  | ⟨1, _⟩ =>
    show win0_1.index t 1 * 128 + 1 * k.val = k.val
    rw [(idx1 t).2]; omega

theorem blk2_apply (c : Dev nD) (t : Fin cfg0.N) (r : Fin 1024) :
    (iblk m c 2 t : Vec Ideal S1024x1 .f32) (ix2 r 0)
      = (V m c main_v2 : S8192x1.Idx → EReal) (ix2 (rowOf t r) 0) := by
  unfold iblk
  rw [View.read_apply]
  show (V m c main_v2 : S8192x1.Idx → EReal) _ = _
  refine congrArg (V m c main_v2 : S8192x1.Idx → EReal) (funext fun a => Fin.ext ?_)
  match a with
  | ⟨0, _⟩ =>
    show win0_2.index t 0 * 1024 + 1 * r.val = t.val / 8 * 1024 + r.val
    rw [(idx2 t).1]; omega
  | ⟨1, _⟩ =>
    show win0_2.index t 1 * 1 + 1 * 0 = 0
    rw [(idx2 t).2]

theorem blk3_apply (c : Dev nD) (t : Fin cfg0.N) (cl : Fin 1024) :
    (iblk m c 3 t : Vec Ideal S1x1024 .f32) (ix2 0 cl)
      = (V m c main_v3 : S1x8192.Idx → EReal) (ix2 0 (colOf t cl)) := by
  unfold iblk
  rw [View.read_apply]
  show (V m c main_v3 : S1x8192.Idx → EReal) _ = _
  refine congrArg (V m c main_v3 : S1x8192.Idx → EReal) (funext fun a => Fin.ext ?_)
  match a with
  | ⟨0, _⟩ =>
    show win0_3.index t 0 * 1 + 1 * 0 = 0
    rw [(idx3 t).1]
  | ⟨1, _⟩ =>
    show win0_3.index t 1 * 1024 + 1 * cl.val = t.val % 8 * 1024 + cl.val
    rw [(idx3 t).2]; omega

theorem blk4_apply (c : Dev nD) (t : Fin cfg0.N) (r : Fin 1024) :
    (iblk m c 4 t : Vec Ideal S1024x1 .i32) (ix2 r 0)
      = (V m c main_v4 : S8192x1.Idx → BitVec 32) (ix2 (rowOf t r) 0) := by
  unfold iblk
  rw [View.read_apply]
  show (V m c main_v4 : S8192x1.Idx → BitVec 32) _ = _
  refine congrArg (V m c main_v4 : S8192x1.Idx → BitVec 32) (funext fun a => Fin.ext ?_)
  match a with
  | ⟨0, _⟩ =>
    show win0_4.index t 0 * 1024 + 1 * r.val = t.val / 8 * 1024 + r.val
    rw [(idx4 t).1]; omega
  | ⟨1, _⟩ =>
    show win0_4.index t 1 * 1 + 1 * 0 = 0
    rw [(idx4 t).2]

theorem blk5_apply (c : Dev nD) (t : Fin cfg0.N) (cl : Fin 1024) :
    (iblk m c 5 t : Vec Ideal S1x1024 .i32) (ix2 0 cl)
      = (V m c main_v5 : S1x8192.Idx → BitVec 32) (ix2 0 (colOf t cl)) := by
  unfold iblk
  rw [View.read_apply]
  show (V m c main_v5 : S1x8192.Idx → BitVec 32) _ = _
  refine congrArg (V m c main_v5 : S1x8192.Idx → BitVec 32) (funext fun a => Fin.ext ?_)
  match a with
  | ⟨0, _⟩ =>
    show win0_5.index t 0 * 1 + 1 * 0 = 0
    rw [(idx5 t).1]
  | ⟨1, _⟩ =>
    show win0_5.index t 1 * 1024 + 1 * cl.val = t.val % 8 * 1024 + cl.val
    rw [(idx5 t).2]; omega

/-! ## The blocks in terms of the argument arrays -/

/-- The labels as a function of the global row. -/
abbrev L (c : Dev nD) : Fin 8192 → BitVec 32 := fun r => m ((c.tc : Thread nD τ).loc main_arg1) (ix1 r)

theorem x0_apply (c : Dev nD) (t : Fin cfg0.N) (r : Fin 1024) (k : Fin 128) :
    (iblk m c 0 t : Vec Ideal S1024x128 .f32) (ix2 r k) = X m c (ix2 (rowOf t r) k) :=
  (blk0_apply m c t r k).trans (congrFun (V_arg0 m c) _)

theorem x1_apply (c : Dev nD) (t : Fin cfg0.N) (cl : Fin 1024) (k : Fin 128) :
    (iblk m c 1 t : Vec Ideal S1024x128 .f32) (ix2 cl k) = X m c (ix2 (colOf t cl) k) :=
  (blk1_apply m c t cl k).trans (congrFun (V_arg0 m c) _)

theorem s0_apply (c : Dev nD) (t : Fin cfg0.N) (r : Fin 1024) :
    (iblk m c 2 t : Vec Ideal S1024x1 .f32) (ix2 r 0) = Cert.Spec.sqn (X m c) (rowOf t r) :=
  (blk2_apply m c t r).trans (V_v2_apply m c _)

theorem s1_apply (c : Dev nD) (t : Fin cfg0.N) (cl : Fin 1024) :
    (iblk m c 3 t : Vec Ideal S1x1024 .f32) (ix2 0 cl) = Cert.Spec.sqn (X m c) (colOf t cl) :=
  (blk3_apply m c t cl).trans (V_v3_apply m c _)

theorem t0_apply (c : Dev nD) (t : Fin cfg0.N) (r : Fin 1024) :
    (iblk m c 4 t : Vec Ideal S1024x1 .i32) (ix2 r 0) = L m c (rowOf t r) :=
  (blk4_apply m c t r).trans (V_v4_apply m c _)

theorem t1_apply (c : Dev nD) (t : Fin cfg0.N) (cl : Fin 1024) :
    (iblk m c 5 t : Vec Ideal S1x1024 .i32) (ix2 0 cl) = L m c (colOf t cl) :=
  (blk5_apply m c t cl).trans (V_v5_apply m c _)

/-! ## The tile's row maxima and minima

First over any six blocks whose entries are known in terms of one feature array, its squared norms
and one label function; then at the blocks the body loads at a grid point. -/

/-- The distance of a tile entry is the specification's distance of the two global rows. -/
theorem dist_of_reads (x0 x1 : Vec Ideal S1024x128 .f32) (s0 : Vec Ideal S1024x1 .f32) (s1 : Vec Ideal S1x1024 .f32)
    (A : S8192x128.Idx → EReal) (i j : Fin 8192) (r cl : Fin 1024)
    (h0 : ∀ k, x0 (ix2 r k) = A (ix2 i k)) (h1 : ∀ k, x1 (ix2 cl k) = A (ix2 j k))
    (h2 : s0 (ix2 r 0) = Cert.Spec.sqn A i) (h3 : s1 (ix2 0 cl) = Cert.Spec.sqn A j) :
    Ideal.sqrt (max (Ideal.ofBits .f32 0x2B8CBCCC#32)
        (s0 (ix2 r 0) + s1 (ix2 0 cl)
          - Ideal.ofBits .f32 0x40000000#32 * ∑ k : Fin 128, x0 (ix2 r k) * x1 (ix2 cl k)))
      = Cert.Spec.dist (Cert.Spec.sqn A) A i j := by
  have hs : ∑ k : Fin 128, x0 (ix2 r k) * x1 (ix2 cl k) = Cert.Spec.inner A i j :=
    Finset.sum_congr rfl fun k _ => by rw [h0 k, h1 k]
  rw [hs, h2, h3]
  rfl

/-- Row maxima of a tile whose blocks are known. -/
theorem pos_of_reads (x0 x1 : Vec Ideal S1024x128 .f32) (s0 : Vec Ideal S1024x1 .f32) (s1 : Vec Ideal S1x1024 .f32)
    (t0 : Vec Ideal S1024x1 .i32) (t1 : Vec Ideal S1x1024 .i32)
    (A : S8192x128.Idx → EReal) (Lf : Fin 8192 → BitVec 32) (i : Fin 8192) (J : Fin 1024 → Fin 8192) (r : Fin 1024)
    (h0 : ∀ k, x0 (ix2 r k) = A (ix2 i k)) (h1 : ∀ cl k, x1 (ix2 cl k) = A (ix2 (J cl) k))
    (h2 : s0 (ix2 r 0) = Cert.Spec.sqn A i) (h3 : ∀ cl, s1 (ix2 0 cl) = Cert.Spec.sqn A (J cl))
    (h4 : t0 (ix2 r 0) = Lf i) (h5 : ∀ cl, t1 (ix2 0 cl) = Lf (J cl)) :
    k0_pay7 (F := Ideal) x0 x1 s0 s1 t0 t1 (ix2 r 0)
      = (Finset.univ : Finset (Fin 1024)).fold max (Ideal.ofBits .f32 0xFF800000#32)
          (fun cl => Cert.Spec.pos (Cert.Spec.sqn A) A Lf i (J cl)) := by
  refine (PayValue.pay7_apply x0 x1 s0 s1 t0 t1 r).trans ?_
  refine Finset.fold_congr fun cl _ => ?_
  rw [dist_of_reads x0 x1 s0 s1 A i (J cl) r cl h0 (h1 cl) h2 (h3 cl), h4, h5 cl]
  rfl

/-- Row minima of a tile whose blocks are known. -/
theorem neg_of_reads (x0 x1 : Vec Ideal S1024x128 .f32) (s0 : Vec Ideal S1024x1 .f32) (s1 : Vec Ideal S1x1024 .f32)
    (t0 : Vec Ideal S1024x1 .i32) (t1 : Vec Ideal S1x1024 .i32)
    (A : S8192x128.Idx → EReal) (Lf : Fin 8192 → BitVec 32) (i : Fin 8192) (J : Fin 1024 → Fin 8192) (r : Fin 1024)
    (h0 : ∀ k, x0 (ix2 r k) = A (ix2 i k)) (h1 : ∀ cl k, x1 (ix2 cl k) = A (ix2 (J cl) k))
    (h2 : s0 (ix2 r 0) = Cert.Spec.sqn A i) (h3 : ∀ cl, s1 (ix2 0 cl) = Cert.Spec.sqn A (J cl))
    (h4 : t0 (ix2 r 0) = Lf i) (h5 : ∀ cl, t1 (ix2 0 cl) = Lf (J cl)) :
    k0_pay8 (F := Ideal) x0 x1 s0 s1 t0 t1 (ix1 r)
      = (Finset.univ : Finset (Fin 1024)).fold min (Ideal.ofBits .f32 0x7F800000#32)
          (fun cl => Cert.Spec.neg (Cert.Spec.sqn A) A Lf i (J cl)) := by
  refine (PayValue.pay8_apply x0 x1 s0 s1 t0 t1 r).trans ?_
  refine Finset.fold_congr fun cl _ => ?_
  rw [dist_of_reads x0 x1 s0 s1 A i (J cl) r cl h0 (h1 cl) h2 (h3 cl), h4, h5 cl]
  rfl

/-- The tile's row maxima at grid point t: the fold over the tile's columns of the specification's
    masked distance between global rows. -/
theorem tile_pos (c : Dev nD) (t : Fin cfg0.N) (r : Fin 1024) :
    k0_pay7 (F := Ideal) (iblk m c 0 t) (iblk m c 1 t) (iblk m c 2 t) (iblk m c 3 t) (iblk m c 4 t) (iblk m c 5 t) (ix2 r 0)
      = (Finset.univ : Finset (Fin 1024)).fold max (Ideal.ofBits .f32 0xFF800000#32)
          (fun cl => Cert.Spec.pos (Cert.Spec.sqn (X m c)) (X m c) (L m c) (rowOf t r) (colOf t cl)) :=
  pos_of_reads (iblk m c 0 t) (iblk m c 1 t) (iblk m c 2 t) (iblk m c 3 t) (iblk m c 4 t) (iblk m c 5 t)
    (X m c) (L m c) (rowOf t r) (colOf t) r
    (fun k => x0_apply m c t r k) (fun cl k => x1_apply m c t cl k) (s0_apply m c t r) (fun cl => s1_apply m c t cl)
    (t0_apply m c t r) (fun cl => t1_apply m c t cl)

/-- The tile's row minima at grid point t likewise. -/
theorem tile_neg (c : Dev nD) (t : Fin cfg0.N) (r : Fin 1024) :
    k0_pay8 (F := Ideal) (iblk m c 0 t) (iblk m c 1 t) (iblk m c 2 t) (iblk m c 3 t) (iblk m c 4 t) (iblk m c 5 t) (ix1 r)
      = (Finset.univ : Finset (Fin 1024)).fold min (Ideal.ofBits .f32 0x7F800000#32)
          (fun cl => Cert.Spec.neg (Cert.Spec.sqn (X m c)) (X m c) (L m c) (rowOf t r) (colOf t cl)) :=
  neg_of_reads (iblk m c 0 t) (iblk m c 1 t) (iblk m c 2 t) (iblk m c 3 t) (iblk m c 4 t) (iblk m c 5 t)
    (X m c) (L m c) (rowOf t r) (colOf t) r
    (fun k => x0_apply m c t r k) (fun cl k => x1_apply m c t cl k) (s0_apply m c t r) (fun cl => s1_apply m c t cl)
    (t0_apply m c t r) (fun cl => t1_apply m c t cl)

end Cert.KernelIdeal.BlockValue

end
-- ==== Proof.TileFold.lean ====
/-
  Folds of max / min over a row of 8192 entries cut into 8 tiles of 1024, and the running
  accumulator that visits the 8 tiles in order. Pure order theory: max and min on a linear
  order are characterised by their universal properties (an element is above a fold of max
  exactly when it is above the initial value and every term), so two folds are equal as soon
  as they have the same upper (lower) bounds.
-/
import Mathlib.Data.Finset.Fold
import Mathlib.Data.EReal.Basic
import Mathlib.Data.Fintype.Basic

namespace Cert.TileFold

section generic

variable {α : Type*} [LinearOrder α]

/-- Every flat position x < 8192 is q * 1024 + r with q = x / 1024, r = x % 1024. -/
private theorem split_idx (x : Fin 8192) :
    x = ⟨(⟨x.val / 1024, by omega⟩ : Fin 8).val * 1024 + (⟨x.val % 1024, by omega⟩ : Fin 1024).val,
          by show x.val / 1024 * 1024 + x.val % 1024 < 8192; omega⟩ :=
  Fin.ext (by show x.val = x.val / 1024 * 1024 + x.val % 1024; omega)

theorem fold_max_tiles_gen (b : α) (f : Fin 8192 → α) :
    (Finset.univ : Finset (Fin 8192)).fold max b f
      = (Finset.univ : Finset (Fin 8)).fold max b (fun q =>
          (Finset.univ : Finset (Fin 1024)).fold max b (fun r =>
            f ⟨q.val * 1024 + r.val, by omega⟩)) := by
  apply le_antisymm
  · refine (Finset.fold_max_le _).mpr ⟨(Finset.le_fold_max _).mpr (Or.inl le_rfl), fun x _ => ?_⟩
    refine (Finset.le_fold_max _).mpr (Or.inr ⟨⟨x.val / 1024, by omega⟩, Finset.mem_univ _, ?_⟩)
    refine (Finset.le_fold_max _).mpr (Or.inr ⟨⟨x.val % 1024, by omega⟩, Finset.mem_univ _, ?_⟩)
    exact le_of_eq (congrArg f (split_idx x))
  · refine (Finset.fold_max_le _).mpr ⟨(Finset.le_fold_max _).mpr (Or.inl le_rfl), fun q _ => ?_⟩
    refine (Finset.fold_max_le _).mpr ⟨(Finset.le_fold_max _).mpr (Or.inl le_rfl), fun r _ => ?_⟩
    exact (Finset.le_fold_max _).mpr (Or.inr ⟨_, Finset.mem_univ _, le_rfl⟩)

theorem fold_min_tiles_gen (b : α) (f : Fin 8192 → α) :
    (Finset.univ : Finset (Fin 8192)).fold min b f
      = (Finset.univ : Finset (Fin 8)).fold min b (fun q =>
          (Finset.univ : Finset (Fin 1024)).fold min b (fun r =>
            f ⟨q.val * 1024 + r.val, by omega⟩)) := by
  apply le_antisymm
  · refine (Finset.le_fold_min _).mpr ⟨(Finset.fold_min_le _).mpr (Or.inl le_rfl), fun q _ => ?_⟩
    refine (Finset.le_fold_min _).mpr ⟨(Finset.fold_min_le _).mpr (Or.inl le_rfl), fun r _ => ?_⟩
    exact (Finset.fold_min_le _).mpr (Or.inr ⟨_, Finset.mem_univ _, le_rfl⟩)
  · refine (Finset.le_fold_min _).mpr ⟨(Finset.fold_min_le _).mpr (Or.inl le_rfl), fun x _ => ?_⟩
    refine (Finset.fold_min_le _).mpr (Or.inr ⟨⟨x.val / 1024, by omega⟩, Finset.mem_univ _, ?_⟩)
    refine (Finset.fold_min_le _).mpr (Or.inr ⟨⟨x.val % 1024, by omega⟩, Finset.mem_univ _, ?_⟩)
    exact le_of_eq (congrArg f (split_idx x)).symm

/-- The upper bounds of the running maximum after tile n are the common upper bounds of the
    initial value and of the tiles 0 … n. -/
private theorem run_max_bounds (b : α) (T : Fin 8 → α) (a : ℕ → α) (h0 : a 0 = max b (T 0))
    (hs : ∀ n (hn : n + 1 < 8), a (n + 1) = max (a n) (T ⟨n + 1, hn⟩)) (c : α) :
    ∀ n, n < 8 → (a n ≤ c ↔ b ≤ c ∧ ∀ q : Fin 8, q.val ≤ n → T q ≤ c) := by
  intro n
  induction n with
  | zero =>
    intro _
    rw [h0, max_le_iff]
    refine and_congr_right fun _ => ⟨fun h q hq => ?_, fun h => h 0 (Nat.le_refl _)⟩
    have : q = 0 := Fin.ext (Nat.le_zero.mp hq)
    exact this ▸ h
  | succ n ih =>
    intro hn
    rw [hs n hn, max_le_iff, ih (by omega)]
    constructor
    · rintro ⟨⟨hb, hq⟩, hT⟩
      refine ⟨hb, fun q hq' => ?_⟩
      rcases Nat.lt_or_ge q.val (n + 1) with h | h
      · exact hq q (by omega)
      · have : q = ⟨n + 1, hn⟩ := Fin.ext (by show q.val = n + 1; omega)
        exact this ▸ hT
    · rintro ⟨hb, hq⟩
      exact ⟨⟨hb, fun q hq' => hq q (by omega)⟩, hq ⟨n + 1, hn⟩ (Nat.le_refl _)⟩

theorem run_max_gen (b : α) (T : Fin 8 → α) (a : ℕ → α) (h0 : a 0 = max b (T 0))
    (hs : ∀ n (hn : n + 1 < 8), a (n + 1) = max (a n) (T ⟨n + 1, hn⟩)) :
    a 7 = (Finset.univ : Finset (Fin 8)).fold max b T := by
  refine eq_of_forall_ge_iff fun c => ?_
  rw [run_max_bounds b T a h0 hs c 7 (by omega), Finset.fold_max_le]
  exact and_congr_right fun _ =>
    ⟨fun h q _ => h q (by omega), fun h q _ => h q (Finset.mem_univ _)⟩

/-- The lower bounds of the running minimum after tile n are the common lower bounds of the
    initial value and of the tiles 0 … n. -/
private theorem run_min_bounds (b : α) (T : Fin 8 → α) (a : ℕ → α) (h0 : a 0 = min b (T 0))
    (hs : ∀ n (hn : n + 1 < 8), a (n + 1) = min (a n) (T ⟨n + 1, hn⟩)) (c : α) :
    ∀ n, n < 8 → (c ≤ a n ↔ c ≤ b ∧ ∀ q : Fin 8, q.val ≤ n → c ≤ T q) := by
  intro n
  induction n with
  | zero =>
    intro _
    rw [h0, le_min_iff]
    refine and_congr_right fun _ => ⟨fun h q hq => ?_, fun h => h 0 (Nat.le_refl _)⟩
    have : q = 0 := Fin.ext (Nat.le_zero.mp hq)
    exact this ▸ h
  | succ n ih =>
    intro hn
    rw [hs n hn, le_min_iff, ih (by omega)]
    constructor
    · rintro ⟨⟨hb, hq⟩, hT⟩
      refine ⟨hb, fun q hq' => ?_⟩
      rcases Nat.lt_or_ge q.val (n + 1) with h | h
      · exact hq q (by omega)
      · have : q = ⟨n + 1, hn⟩ := Fin.ext (by show q.val = n + 1; omega)
        exact this ▸ hT
    · rintro ⟨hb, hq⟩
      exact ⟨⟨hb, fun q hq' => hq q (by omega)⟩, hq ⟨n + 1, hn⟩ (Nat.le_refl _)⟩

theorem run_min_gen (b : α) (T : Fin 8 → α) (a : ℕ → α) (h0 : a 0 = min b (T 0))
    (hs : ∀ n (hn : n + 1 < 8), a (n + 1) = min (a n) (T ⟨n + 1, hn⟩)) :
    a 7 = (Finset.univ : Finset (Fin 8)).fold min b T := by
  refine eq_of_forall_le_iff fun c => ?_
  rw [run_min_bounds b T a h0 hs c 7 (by omega), Finset.le_fold_min]
  exact and_congr_right fun _ =>
    ⟨fun h q _ => h q (by omega), fun h q _ => h q (Finset.mem_univ _)⟩

end generic

/-! ## The statements on the extended reals -/

theorem fold_max_tiles (b : EReal) (f : Fin 8192 → EReal) :
    (Finset.univ : Finset (Fin 8192)).fold max b f
      = (Finset.univ : Finset (Fin 8)).fold max b (fun q =>
          (Finset.univ : Finset (Fin 1024)).fold max b (fun r =>
            f ⟨q.val * 1024 + r.val, by omega⟩)) :=
  fold_max_tiles_gen b f

theorem fold_min_tiles (b : EReal) (f : Fin 8192 → EReal) :
    (Finset.univ : Finset (Fin 8192)).fold min b f
      = (Finset.univ : Finset (Fin 8)).fold min b (fun q =>
          (Finset.univ : Finset (Fin 1024)).fold min b (fun r =>
            f ⟨q.val * 1024 + r.val, by omega⟩)) :=
  fold_min_tiles_gen b f

theorem run_max (b : EReal) (T : Fin 8 → EReal) (a : ℕ → EReal) (h0 : a 0 = max b (T 0))
    (hs : ∀ n (hn : n + 1 < 8), a (n + 1) = max (a n) (T ⟨n + 1, hn⟩)) :
    a 7 = (Finset.univ : Finset (Fin 8)).fold max b T :=
  run_max_gen b T a h0 hs

theorem run_min (b : EReal) (T : Fin 8 → EReal) (a : ℕ → EReal) (h0 : a 0 = min b (T 0))
    (hs : ∀ n (hn : n + 1 < 8), a (n + 1) = min (a n) (T ⟨n + 1, hn⟩)) :
    a 7 = (Finset.univ : Finset (Fin 8)).fold min b T :=
  run_min_gen b T a h0 hs

end Cert.TileFold
-- ==== Proof.KI.Final.lean ====
/-
  The two output arrays after the region, as functions of the argument arrays. Row block p is
  visited at the eight grid points 8p … 8p + 7, one per column block; the running accumulators start
  from the neutral values at the first of them and fold in one tile's row results at each, so after the
  last they hold, for every row of the block, the maximum (minimum) over all 8192 columns of the masked
  distances: the specification's hardest positive and hardest negative. The last point of each row block
  writes the accumulators back, and the eight write-backs tile the two output arrays.
-/
import proofs.«174582_j2078764171739_1_alg».proof.Proof.KI.AccValue
import proofs.«174582_j2078764171739_1_alg».proof.Proof.KI.BlockValue
import proofs.«174582_j2078764171739_1_alg».proof.Proof.TileFold
import proofs.«174582_j2078764171739_1_alg».proof.Proof.PayloadValue
import proofs.«174582_j2078764171739_1_alg».proof.Proof.Spec
import Idealize.ShloMosaic.Lib.Pipeline.Value

set_option maxRecDepth 16384

noncomputable section

namespace Cert.KernelIdeal.Final

open Cert.KernelIdeal Cert.KernelIdeal.Gen Cert.KernelIdeal.Fr Cert.KernelIdeal.BlockValue Cert.KernelIdeal.PayValue
  Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## One step of the accumulators at a row -/

/-- Point 8p + q of the grid exists. -/
theorem pt_lt (p : Fin 8) (q : ℕ) (hq : q < 8) : 8 * p.val + q < cfg0.N :=
  Nat.lt_of_lt_of_eq (by have := p.isLt; omega) Gen.N_0.symm

/-- In the first column block the maximum accumulator is the tile's row maximum taken from −∞. -/
theorem acc_reset_pos (c : Dev nD) (n : ℕ) (h : n < cfg0.N) (h0 : n % 8 = 0) (r : Fin 1024) :
    (accAt m c n h).1 (ix2 r 0)
      = max (Ideal.ofBits .f32 0xFF800000#32) (tilePos m c ⟨n, h⟩ (ix2 r 0)) := by
  cases n with
  | zero =>
    rw [accAt_zero]
    refine (pay1_apply _ _ _).trans ?_
    rw [pay3_apply]
  | succ k =>
    rw [accAt_reset m c k h h0]
    refine (pay1_apply _ _ _).trans ?_
    rw [pay3_apply]

/-- Elsewhere it is the maximum of what the point before left and the tile's row maximum. -/
theorem acc_step_pos (c : Dev nD) (n : ℕ) (h : n + 1 < cfg0.N) (h0 : ¬(n + 1) % 8 = 0) (r : Fin 1024) :
    (accAt m c (n + 1) h).1 (ix2 r 0)
      = max ((accAt m c n (Nat.lt_of_succ_lt h)).1 (ix2 r 0)) (tilePos m c ⟨n + 1, h⟩ (ix2 r 0)) := by
  rw [accAt_step m c n h h0]
  exact pay1_apply _ _ _

/-- In the first column block the minimum accumulator is the tile's row minimum taken from +∞. -/
theorem acc_reset_neg (c : Dev nD) (n : ℕ) (h : n < cfg0.N) (h0 : n % 8 = 0) (r : Fin 1024) :
    (accAt m c n h).2 (ix2 r 0)
      = min (Ideal.ofBits .f32 0x7F800000#32) (tileNeg m c ⟨n, h⟩ (ix1 r)) := by
  cases n with
  | zero =>
    rw [accAt_zero]
    refine (pay2_apply _ _ _).trans ?_
    rw [pay4_apply]
  | succ k =>
    rw [accAt_reset m c k h h0]
    refine (pay2_apply _ _ _).trans ?_
    rw [pay4_apply]

/-- Elsewhere it is the minimum of what the point before left and the tile's row minimum. -/
theorem acc_step_neg (c : Dev nD) (n : ℕ) (h : n + 1 < cfg0.N) (h0 : ¬(n + 1) % 8 = 0) (r : Fin 1024) :
    (accAt m c (n + 1) h).2 (ix2 r 0)
      = min ((accAt m c n (Nat.lt_of_succ_lt h)).2 (ix2 r 0)) (tileNeg m c ⟨n + 1, h⟩ (ix1 r)) := by
  rw [accAt_step m c n h h0]
  exact pay2_apply _ _ _

/-! ## The accumulators after a row block's last point -/

/-- The running maximum of row r of row block p after column block q (a junk value beyond the last). -/
def runPos (c : Dev nD) (p : Fin 8) (r : Fin 1024) (q : ℕ) : EReal :=
  if hq : q < 8 then (accAt m c (8 * p.val + q) (pt_lt p q hq)).1 (ix2 r 0) else 0

/-- The running minimum likewise. -/
def runNeg (c : Dev nD) (p : Fin 8) (r : Fin 1024) (q : ℕ) : EReal :=
  if hq : q < 8 then (accAt m c (8 * p.val + q) (pt_lt p q hq)).2 (ix2 r 0) else 0

/-- The global row under row r of row block p at point 8p + q. -/
theorem rowOf_pt (p : Fin 8) (q : ℕ) (hq : q < 8) (r : Fin 1024) :
    rowOf ⟨8 * p.val + q, pt_lt p q hq⟩ r = ⟨p.val * 1024 + r.val, by omega⟩ :=
  Fin.ext (by show (8 * p.val + q) / 8 * 1024 + r.val = p.val * 1024 + r.val; omega)

/-- The global row under row cl of column block q at point 8p + q. -/
theorem colOf_pt (p : Fin 8) (q : ℕ) (hq : q < 8) (cl : Fin 1024) :
    colOf ⟨8 * p.val + q, pt_lt p q hq⟩ cl = ⟨q * 1024 + cl.val, by omega⟩ :=
  Fin.ext (by show (8 * p.val + q) % 8 * 1024 + cl.val = q * 1024 + cl.val; omega)

/-- After the last point of row block p the maximum accumulator holds, at row r, the hardest positive
    of global row 1024 p + r. -/
theorem acc_pos (c : Dev nD) (p : Fin 8) (r : Fin 1024) (h : 8 * p.val + 7 < cfg0.N) :
    (accAt m c (8 * p.val + 7) h).1 (ix2 r 0)
      = Cert.Spec.hardPos (Cert.Spec.sqn (X m c)) (X m c) (L m c) ⟨p.val * 1024 + r.val, by omega⟩ := by
  have h0 : runPos m c p r 0 = max (Ideal.ofBits .f32 0xFF800000#32)
      (tilePos m c ⟨8 * p.val + (0 : Fin 8).val, pt_lt p _ (0 : Fin 8).isLt⟩ (ix2 r 0)) := by
    unfold runPos
    rw [dif_pos (by omega : 0 < 8)]
    exact acc_reset_pos m c (8 * p.val + 0) _ (by omega) r
  have hs : ∀ n (hn : n + 1 < 8), runPos m c p r (n + 1)
      = max (runPos m c p r n) (tilePos m c ⟨8 * p.val + (⟨n + 1, hn⟩ : Fin 8).val, pt_lt p _ (⟨n + 1, hn⟩ : Fin 8).isLt⟩ (ix2 r 0)) := by
    intro n hn
    unfold runPos
    rw [dif_pos hn, dif_pos (by omega : n < 8)]
    exact acc_step_pos m c (8 * p.val + n) _ (by omega) r
  have hrun := TileFold.run_max (Ideal.ofBits .f32 0xFF800000#32)
    (fun q : Fin 8 => tilePos m c ⟨8 * p.val + q.val, pt_lt p q.val q.isLt⟩ (ix2 r 0)) (runPos m c p r) h0 hs
  have h7 : runPos m c p r 7 = (accAt m c (8 * p.val + 7) h).1 (ix2 r 0) := by
    unfold runPos
    rw [dif_pos (by omega : 7 < 8)]
  unfold Cert.Spec.hardPos
  rw [TileFold.fold_max_tiles, ← h7, hrun]
  refine Finset.fold_congr fun q _ => ?_
  refine (tile_pos m c ⟨8 * p.val + q.val, pt_lt p q.val q.isLt⟩ r).trans (Finset.fold_congr fun cl _ => ?_)
  rw [rowOf_pt p q.val q.isLt r, colOf_pt p q.val q.isLt cl]

/-- After the last point of row block p the minimum accumulator holds, at row r, the hardest negative
    of global row 1024 p + r. -/
theorem acc_neg (c : Dev nD) (p : Fin 8) (r : Fin 1024) (h : 8 * p.val + 7 < cfg0.N) :
    (accAt m c (8 * p.val + 7) h).2 (ix2 r 0)
      = Cert.Spec.hardNeg (Cert.Spec.sqn (X m c)) (X m c) (L m c) ⟨p.val * 1024 + r.val, by omega⟩ := by
  have h0 : runNeg m c p r 0 = min (Ideal.ofBits .f32 0x7F800000#32)
      (tileNeg m c ⟨8 * p.val + (0 : Fin 8).val, pt_lt p _ (0 : Fin 8).isLt⟩ (ix1 r)) := by
    unfold runNeg
    rw [dif_pos (by omega : 0 < 8)]
    exact acc_reset_neg m c (8 * p.val + 0) _ (by omega) r
  have hs : ∀ n (hn : n + 1 < 8), runNeg m c p r (n + 1)
      = min (runNeg m c p r n) (tileNeg m c ⟨8 * p.val + (⟨n + 1, hn⟩ : Fin 8).val, pt_lt p _ (⟨n + 1, hn⟩ : Fin 8).isLt⟩ (ix1 r)) := by
    intro n hn
    unfold runNeg
    rw [dif_pos hn, dif_pos (by omega : n < 8)]
    exact acc_step_neg m c (8 * p.val + n) _ (by omega) r
  have hrun := TileFold.run_min (Ideal.ofBits .f32 0x7F800000#32)
    (fun q : Fin 8 => tileNeg m c ⟨8 * p.val + q.val, pt_lt p q.val q.isLt⟩ (ix1 r)) (runNeg m c p r) h0 hs
  have h7 : runNeg m c p r 7 = (accAt m c (8 * p.val + 7) h).2 (ix2 r 0) := by
    unfold runNeg
    rw [dif_pos (by omega : 7 < 8)]
  unfold Cert.Spec.hardNeg
  rw [TileFold.fold_min_tiles, ← h7, hrun]
  refine Finset.fold_congr fun q _ => ?_
  refine (tile_neg m c ⟨8 * p.val + q.val, pt_lt p q.val q.isLt⟩ r).trans (Finset.fold_congr fun cl _ => ?_)
  rw [rowOf_pt p q.val q.isLt r, colOf_pt p q.val q.isLt cl]

/-! ## The two output arrays

The write-back at the last point of row block p puts the accumulators' 1024 rows at rows
1024 p … 1024 p + 1023 of the output arrays; the eight of them tile the arrays. -/

/-- After the last point of the row block that point t closes, at any index of the accumulator. -/
theorem acc_pos_at (c : Dev nD) (t : Fin cfg0.N) (h7 : t.val % 8 = 7) (j : S1024x1.Idx) :
    (accAt m c t.val t.isLt).1 j
      = Cert.Spec.hardPos (Cert.Spec.sqn (X m c)) (X m c) (L m c)
          ⟨t.val / 8 * 1024 + (j 0).val, by have := t_lt t; have := idx2_lt0 j; omega⟩ := by
  obtain ⟨r, u, rfl⟩ : ∃ (r : Fin 1024) (u : Fin 1), j = ix2 r u := ⟨j 0, j 1, eq_ix2 j⟩
  obtain rfl : u = 0 := Subsingleton.elim _ _
  have key : ∀ (n : ℕ) (hn : n < cfg0.N) (p : Fin 8), n = 8 * p.val + 7 →
      (accAt m c n hn).1 (ix2 r 0)
        = Cert.Spec.hardPos (Cert.Spec.sqn (X m c)) (X m c) (L m c) ⟨p.val * 1024 + r.val, by omega⟩ := by
    intro n hn p hp
    subst hp
    exact acc_pos m c p r hn
  exact key t.val t.isLt ⟨t.val / 8, by have := t_lt t; omega⟩ (by show t.val = 8 * (t.val / 8) + 7; omega)

theorem acc_neg_at (c : Dev nD) (t : Fin cfg0.N) (h7 : t.val % 8 = 7) (j : S1024x1.Idx) :
    (accAt m c t.val t.isLt).2 j
      = Cert.Spec.hardNeg (Cert.Spec.sqn (X m c)) (X m c) (L m c)
          ⟨t.val / 8 * 1024 + (j 0).val, by have := t_lt t; have := idx2_lt0 j; omega⟩ := by
  obtain ⟨r, u, rfl⟩ : ∃ (r : Fin 1024) (u : Fin 1), j = ix2 r u := ⟨j 0, j 1, eq_ix2 j⟩
  obtain rfl : u = 0 := Subsingleton.elim _ _
  have key : ∀ (n : ℕ) (hn : n < cfg0.N) (p : Fin 8), n = 8 * p.val + 7 →
      (accAt m c n hn).2 (ix2 r 0)
        = Cert.Spec.hardNeg (Cert.Spec.sqn (X m c)) (X m c) (L m c) ⟨p.val * 1024 + r.val, by omega⟩ := by
    intro n hn p hp
    subst hp
    exact acc_neg m c p r hn
  exact key t.val t.isLt ⟨t.val / 8, by have := t_lt t; omega⟩ (by show t.val = 8 * (t.val / 8) + 7; omega)

/-- The hardest positive of every row, as the first output array. -/
abbrev G6 (c : Dev nD) : S8192x1.Idx → EReal := fun j =>
  Cert.Spec.hardPos (Cert.Spec.sqn (X m c)) (X m c) (L m c) ⟨(j 0).val, idx2_lt0 j⟩

/-- The hardest negative of every row, as the second output array. -/
abbrev G7 (c : Dev nD) : S8192x1.Idx → EReal := fun j =>
  Cert.Spec.hardNeg (Cert.Spec.sqn (X m c)) (X m c) (L m c) ⟨(j 0).val, idx2_lt0 j⟩

theorem idx6 : ∀ t : Fin cfg0.N, win0_6.index t 0 = t.val / 8 ∧ win0_6.index t 1 = 0 :=
  (by decide +kernel : ∀ t : Fin grid0.N, win0_6.index t 0 = t.val / 8 ∧ win0_6.index t 1 = 0)
theorem idx7 : ∀ t : Fin cfg0.N, win0_7.index t 0 = t.val / 8 ∧ win0_7.index t 1 = 0 :=
  (by decide +kernel : ∀ t : Fin grid0.N, win0_7.index t 0 = t.val / 8 ∧ win0_7.index t 1 = 0)

/-- What a flushing point writes back into the first output array is its block of the hardest positives. -/
theorem flushed6_eq (c : Dev nD) (t : Fin cfg0.N) (hf : (cfg0.win 6).flush t = true) :
    (dats m 0 c).flushed 6 t = ((cfg0.win 6).blk t).view.read (Elt Ideal) (G6 m c) := by
  have h7 : t.val % 8 = 7 := (flush0_6 t).mp hf
  show (cfg0.win 6).cut (grid0.coords t) ((dats m 0 c).after 6 t) = _
  rw [after0_6, (outsAt_out m c t h7).1]
  funext y
  show (accAt m c t.val t.isLt).1 y = G6 m c (((cfg0.win 6).blk t).view.emb y)
  refine (acc_pos_at m c t h7 y).trans ?_
  refine congrArg (Cert.Spec.hardPos (Cert.Spec.sqn (X m c)) (X m c) (L m c)) (Fin.ext ?_)
  show t.val / 8 * 1024 + (y 0).val = win0_6.index t 0 * 1024 + 1 * (y 0).val
  rw [(idx6 t).1]; omega

theorem flushed7_eq (c : Dev nD) (t : Fin cfg0.N) (hf : (cfg0.win 7).flush t = true) :
    (dats m 0 c).flushed 7 t = ((cfg0.win 7).blk t).view.read (Elt Ideal) (G7 m c) := by
  have h7 : t.val % 8 = 7 := (flush0_7 t).mp hf
  show (cfg0.win 7).cut (grid0.coords t) ((dats m 0 c).after 7 t) = _
  rw [after0_7, (outsAt_out m c t h7).2]
  funext y
  show (accAt m c t.val t.isLt).2 y = G7 m c (((cfg0.win 7).blk t).view.emb y)
  refine (acc_neg_at m c t h7 y).trans ?_
  refine congrArg (Cert.Spec.hardNeg (Cert.Spec.sqn (X m c)) (X m c) (L m c)) (Fin.ext ?_)
  show t.val / 8 * 1024 + (y 0).val = win0_7.index t 0 * 1024 + 1 * (y 0).val
  rw [(idx7 t).1]; omega

/-- Row i of an 8192 × 1 array lies in the block of the last point of row block i / 1024. -/
theorem cover6 (i : S8192x1.Idx) :
    ∃ t : Fin cfg0.N, (cfg0.win 6).flush t = true ∧ i ∈ ((cfg0.win 6).blk t).view.set := by
  have hi0 : (i 0).val < 8192 := idx2_lt0 i
  have hi1 : (i 1).val < 1 := idx2_lt1 i
  let t : Fin cfg0.N := ⟨8 * ((i 0).val / 1024) + 7, pt_lt ⟨(i 0).val / 1024, by omega⟩ 7 (by omega)⟩
  have ht : t.val = 8 * ((i 0).val / 1024) + 7 := rfl
  refine ⟨t, (flush0_6 t).mpr (by rw [ht]; omega), ?_⟩
  show i ∈ ((View.whole main_v6_0).slice (win0_6.rect t)).set
  rw [View.set_slice_whole, Rect.mem_set_unit]
  obtain ⟨e0, e1⟩ := idx6 t
  intro a
  match a with
  | ⟨0, _⟩ =>
    show win0_6.index t 0 * 1024 ≤ (i 0).val ∧ (i 0).val < win0_6.index t 0 * 1024 + 1024
    rw [e0, ht]; omega
  | ⟨1, _⟩ =>
    show win0_6.index t 1 * 1 ≤ (i 1).val ∧ (i 1).val < win0_6.index t 1 * 1 + 1
    rw [e1]; omega

theorem cover7 (i : S8192x1.Idx) :
    ∃ t : Fin cfg0.N, (cfg0.win 7).flush t = true ∧ i ∈ ((cfg0.win 7).blk t).view.set := by
  have hi0 : (i 0).val < 8192 := idx2_lt0 i
  have hi1 : (i 1).val < 1 := idx2_lt1 i
  let t : Fin cfg0.N := ⟨8 * ((i 0).val / 1024) + 7, pt_lt ⟨(i 0).val / 1024, by omega⟩ 7 (by omega)⟩
  have ht : t.val = 8 * ((i 0).val / 1024) + 7 := rfl
  refine ⟨t, (flush0_7 t).mpr (by rw [ht]; omega), ?_⟩
  show i ∈ ((View.whole main_v6_1).slice (win0_7.rect t)).set
  rw [View.set_slice_whole, Rect.mem_set_unit]
  obtain ⟨e0, e1⟩ := idx7 t
  intro a
  match a with
  | ⟨0, _⟩ =>
    show win0_7.index t 0 * 1024 ≤ (i 0).val ∧ (i 0).val < win0_7.index t 0 * 1024 + 1024
    rw [e0, ht]; omega
  | ⟨1, _⟩ =>
    show win0_7.index t 1 * 1 ≤ (i 1).val ∧ (i 1).val < win0_7.index t 1 * 1 + 1
    rw [e1]; omega

/-- The first output array after the region: every row's hardest positive. -/
theorem final6 (c : Dev nD) : (dats m 0 c).arrAt 6 cfg0.N = G6 m c :=
  (dats m 0 c).arrAt_eq_of_cover 6 (G6 m c) (fun t hf => flushed6_eq m c t hf) cover6

/-- The second output array after the region: every row's hardest negative. -/
theorem final7 (c : Dev nD) : (dats m 0 c).arrAt 7 cfg0.N = G7 m c :=
  (dats m 0 c).arrAt_eq_of_cover 7 (G7 m c) (fun t hf => flushed7_eq m c t hf) cover7

end Cert.KernelIdeal.Final

end
-- ==== Proof.Tail.lean ====
/-
  The last lines both programs share: from the two mining arrays (hardest positive `ap`, hardest negative `an`, one
  entry per row) the margin loss mean(max(0, 0.3 − (an − ap))) and the precision mean([an > ap]), each a sum over the
  8192 rows divided by 8192. Stated once, over the literal shapes, with the shape facts as arguments, so that each
  program's own facts fit; it is never opened: both sides apply it to equal arrays.
-/
import Idealize.ShloMosaic.PureOps
import Idealize.ShloMosaic.PureOps.Ideal

noncomputable section

namespace Cert.Tail

open Idealize.ShloMosaic

/-- mean(max(0, 0.3 − (an − ap))). -/
def loss (hb : (⟨0, ![]⟩ : Shape).BroadcastsInDim ⟨1, ![8192]⟩ (![] : Fin 0 → Fin 1))
    (hr : (⟨1, ![8192]⟩ : Shape).ReducesTo [0] ⟨0, ![]⟩) (h0 : 0 < (⟨0, ![]⟩ : Shape).numel)
    (ap an : FVec Ideal ⟨1, ![8192]⟩ .f32) : FVec Ideal ⟨0, ![]⟩ .f32 :=
  Host.divf (Host.reduceAdd (maximumf (broadcastInDim ⟨1, ![8192]⟩ ![] hb (constant (F := Ideal) ⟨0, ![]⟩ .f32 0x00000000#32))
      (subf (broadcastInDim ⟨1, ![8192]⟩ ![] hb (constant (F := Ideal) ⟨0, ![]⟩ .f32 0x3E99999A#32)) (subf an ap)))
    (constant (F := Ideal) ⟨0, ![]⟩ .f32 0x00000000#32) hr h0) (constant (F := Ideal) ⟨0, ![]⟩ .f32 0x46000000#32)

/-- mean([an > ap]). -/
def prec (hr : (⟨1, ![8192]⟩ : Shape).ReducesTo [0] ⟨0, ![]⟩) (h0 : 0 < (⟨0, ![]⟩ : Shape).numel)
    (ap an : FVec Ideal ⟨1, ![8192]⟩ .f32) : FVec Ideal ⟨0, ![]⟩ .f32 :=
  Host.divf (Host.reduceAdd (uitofp .f32 (cmpf .ogt an ap)) (constant (F := Ideal) ⟨0, ![]⟩ .f32 0x00000000#32) hr h0)
    (constant (F := Ideal) ⟨0, ![]⟩ .f32 0x46000000#32)

end Cert.Tail

end
-- ==== Proof.LibColumnDrop.lean ====
/-
  A column read back as a vector.

  A matrix with ONE column, shape `[a, 1]`, cast to the vector `[a]` reads, at `i`, the column at `(i, 0)`: both are
  position `i` in row-major order. This is the inverse of casting a vector to a column.
-/
import Idealize.ShloMosaic.Lib.Pipeline.Value
import Idealize.ShloMosaic.Lib.ValueIdx

namespace Cert.LibColumnDrop

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnDrop
-- ==== Proof.KI.Results.lean ====
/-
  The idealized kernel's two results as functions of the argument arrays. When the region has ended the two output
  arrays hold, row by row, the hardest positive and the hardest negative of the specification (the accumulators after
  the last column-block, written back block by block); the nineteen lines after the region reshape the two columns to
  vectors and compute the margin loss and the precision from them: the shared tail applied to the specification's arrays.
-/
import proofs.«174582_j2078764171739_1_alg».proof.Proof.KI.Claims
import proofs.«174582_j2078764171739_1_alg».proof.Proof.KI.Final
import proofs.«174582_j2078764171739_1_alg».proof.Proof.Tail
import proofs.«174582_j2078764171739_1_alg».proof.Proof.LibColumnDrop
import Idealize.ShloMosaic.Lib.StableHlo.Run

set_option maxRecDepth 16384

noncomputable section

namespace Cert.KernelIdeal.Res

open Cert.KernelIdeal Cert.KernelIdeal.Gen Cert.KernelIdeal.Fr Cert.KernelIdeal.BlockValue Cert.KernelIdeal.Final
open Idealize.ShloMosaic Idealize.ShloMosaic.TcCoe Idealize.SL.Sem Idealize.ShloMosaic.ValueIdx

variable (m : (ℓ : Loc nD τ sig) → Buf (Elt Ideal) ℓ) (ρ : Dev nD → PrngReg)

/-- The hardest positives, one per row, as the vector the tail takes. -/
abbrev APk (c : Dev nD) : FVec Ideal S8192 .f32 :=
  fun j => Cert.Spec.hardPos (Cert.Spec.sqn (X m c)) (X m c) (L m c) (j 0)
/-- The hardest negatives. -/
abbrev ANk (c : Dev nD) : FVec Ideal S8192 .f32 :=
  fun j => Cert.Spec.hardNeg (Cert.Spec.sqn (X m c)) (X m c) (L m c) (j 0)

/-- The first output column, cast to a vector, is the hardest positives: entry i of the vector is entry (i, 0) of the column. -/
theorem col6 (c : Dev nD) : shapeCast S8192 (W2 m c (Proc.devRef .tc main_v6_0)) shapeCasts_S8192x1_S8192 = APk m c := by
  funext j
  obtain ⟨i, rfl⟩ : ∃ i : Fin 8192, j = ix1 i := ⟨j 0, eq_ix1 j⟩
  rw [Cert.LibColumnDrop.shapeCast_a1_a_apply, W2_v6_0, final6]

theorem col7 (c : Dev nD) : shapeCast S8192 (W2 m c (Proc.devRef .tc main_v6_1)) shapeCasts_S8192x1_S8192 = ANk m c := by
  funext j
  obtain ⟨i, rfl⟩ : ∃ i : Fin 8192, j = ix1 i := ⟨j 0, eq_ix1 j⟩
  rw [Cert.LibColumnDrop.shapeCast_a1_a_apply, W2_v6_1, final7]

/-- The loss, after the nineteen lines: the shared tail of the two columns read as vectors. -/
theorem VT_v15 (c : Dev nD) : VT m c (Proc.devRef .tc main_v15)
    = Cert.Tail.loss bcast_S_S8192 reducesTo_S8192_S_d0 h_S_
        (shapeCast S8192 (W2 m c (Proc.devRef .tc main_v6_0)) shapeCasts_S8192x1_S8192)
        (shapeCast S8192 (W2 m c (Proc.devRef .tc main_v6_1)) shapeCasts_S8192x1_S8192) := by
  unfold VT Cert.Tail.loss
  generalize W2 m c = W
  after_results
  rfl

/-- The precision likewise. -/
theorem VT_v19 (c : Dev nD) : VT m c (Proc.devRef .tc main_v19)
    = Cert.Tail.prec reducesTo_S8192_S_d0 h_S_
        (shapeCast S8192 (W2 m c (Proc.devRef .tc main_v6_0)) shapeCasts_S8192x1_S8192)
        (shapeCast S8192 (W2 m c (Proc.devRef .tc main_v6_1)) shapeCasts_S8192x1_S8192) := by
  unfold VT Cert.Tail.prec
  generalize W2 m c = W
  after_results
  rfl

/-- The idealized kernel's run: both results at the shared tail of the specification's arrays, the arguments unchanged. -/
theorem run_spec : θ_run (defs (F := Ideal)) (onTc (τ := τ) (main (F := Ideal))) ⟨m, fun _ => 0, ρ⟩ fun r => ∀ c : Dev nD,
      r.2.mem ((c.tc : Thread nD τ).loc main_v15) = Cert.Tail.loss bcast_S_S8192 reducesTo_S8192_S_d0 h_S_ (APk m c) (ANk m c)
      ∧ r.2.mem ((c.tc : Thread nD τ).loc main_v19) = Cert.Tail.prec reducesTo_S8192_S_d0 h_S_ (APk m c) (ANk m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v15 (Pipeline.mem_restRefs_of main_v15 rfl (by decide))).trans ((VT_v15 m c).trans (by rw [col6, col7])),
     ((h c).2 main_v19 (Pipeline.mem_restRefs_of main_v19 rfl (by decide))).trans ((VT_v19 m c).trans (by rw [col6, col7])),
     ((h c).1 0).trans (((dats m 0 c).arrAt_in 0 rfl _).trans ((A_eq m c 0).trans (Cert.KernelIdeal.Fr.V_arg0 m c))),
     ((h c).2 main_arg1 (Pipeline.mem_restRefs_of main_arg1 rfl (by decide))).trans (VT_arg1 m c)⟩) (run_main m ρ)

end Cert.KernelIdeal.Res

end
-- ==== Proof.RefValue.lean ====
/-
  What the reference program computes, read index by index on the extended reals.

  Its 8192 × 8192 table of masked distances is, entry (i, c), the specification's `pos` (the clipped Euclidean
  distance √ max(ε, ‖x_i‖² + ‖x_c‖² − 2·⟨x_i, x_c⟩) where the labels of rows i and c agree, −∞ elsewhere) or `neg`
  (+∞ where they agree, the distance elsewhere): the row sums of squares are the specification's squared norms, the
  product of the array with its transpose is the table of inner products, and the two label broadcasts read the
  label of the row and of the column. A reduction with a maximum (a minimum) over the columns is, row by row, the
  fold of the maximum (minimum) over the 8192 columns from the initial −∞ (+∞): the hardest positive and the hardest
  negative of the row. The remaining operations are the shared tail, applied to those two arrays.
-/
import proofs.«174582_j2078764171739_1_alg».proof.Proof.RefRead
import proofs.«174582_j2078764171739_1_alg».proof.Proof.Spec
import proofs.«174582_j2078764171739_1_alg».proof.Proof.Tail
import Idealize.ShloMosaic.PureOps.Ideal.Laws
import Idealize.ShloMosaic.Lib.ValueIdx

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The table of masked distances, entry by entry -/

/-- The row sum of squares at row `r` is the specification's squared norm: the same zero plus the same 128 squares. -/
theorem sqn_eq (x0 : (⟨S8192x128, .f32⟩ : BufTy).Contents (Elt Ideal)) (r : Fin 8192) :
    val_main_v1 (F := Ideal) x0 (ix1 r) = Cert.Spec.sqn x0 r := by
  rw [val_main_v1_apply]
  unfold Cert.Spec.sqn
  refine congrArg (Ideal.ofBits .f32 0x00000000#32 + ·) (Finset.sum_congr rfl fun k _ => ?_)
  have e : idx_main_v1 (ix1 r) k = ix2 r k :=
    funext fun a => Fin.ext (by match a with | ⟨0, _⟩ => rfl | ⟨1, _⟩ => rfl)
  rw [e]
  rfl

/-- Entry (i, c) of the array times its transpose is the inner product of rows `i` and `c`. -/
theorem inner_eq (x0 : (⟨S8192x128, .f32⟩ : BufTy).Contents (Elt Ideal)) (i c : Fin 8192) :
    val_main_v8 (F := Ideal) x0 (ix2 i c) = Cert.Spec.inner x0 i c := by
  rw [val_main_v8_apply]
  unfold Cert.Spec.inner
  refine Finset.sum_congr rfl fun k _ => ?_
  rw [val_main_v7_apply]
  have el : lidx_main_v8 (ix2 i c) k = ix2 i k :=
    funext fun a => Fin.ext (by match a with | ⟨0, _⟩ => rfl | ⟨1, _⟩ => rfl)
  have er : idx_main_v7 (ridx_main_v8 (ix2 i c) k) = ix2 c k :=
    funext fun a => Fin.ext (by match a with | ⟨0, _⟩ => rfl | ⟨1, _⟩ => rfl)
  rw [el, er]

/-- Entry (i, c) of the distance table: the row norm of `i` plus the column norm of `c` less twice the inner
    product, clipped below at ε, under the square root. -/
theorem dist_eq (x0 : (⟨S8192x128, .f32⟩ : BufTy).Contents (Elt Ideal)) (i c : Fin 8192) :
    val_main_v13 (F := Ideal) x0 (ix2 i c) = Cert.Spec.dist (Cert.Spec.sqn x0) x0 i c := by
  rw [val_main_v13_apply, val_main_v12_apply, val_main_call0_v1_apply, val_main_call0_v0_apply, val_main_cst_1_apply,
    val_main_v11_apply, val_main_v6_apply, val_main_v4_apply, val_main_v2_apply, val_main_v5_apply, val_main_v3_apply,
    val_main_v10_apply, val_main_v9_apply, val_main_cst_0_apply, inner_eq]
  have er : idx_main_v2 (idx_main_v4 (ix2 i c)) = ix1 i :=
    funext fun a => Fin.ext (by match a with | ⟨0, _⟩ => rfl)
  have ec : idx_main_v3 (idx_main_v5 (ix2 i c)) = ix1 c :=
    funext fun a => Fin.ext (by match a with | ⟨0, _⟩ => rfl)
  rw [er, ec, sqn_eq, sqn_eq]
  rfl

/-- The label of the row and the label of the column, as the two broadcasts of the label array read them. -/
theorem label_eq (x1 : (⟨S8192, .i32⟩ : BufTy).Contents (Elt Ideal)) (i c : Fin 8192) :
    val_main_v18 (F := Ideal) x1 (ix2 i c) = IntOp.cmpi .eq (x1 (ix1 i)) (x1 (ix1 c)) := by
  rw [val_main_v18_apply, val_main_v16_apply, val_main_v14_apply, val_main_v17_apply, val_main_v15_apply]
  have er : idx_main_v14 (idx_main_v16 (ix2 i c)) = ix1 i :=
    funext fun a => Fin.ext (by match a with | ⟨0, _⟩ => rfl)
  have ec : idx_main_v15 (idx_main_v17 (ix2 i c)) = ix1 c :=
    funext fun a => Fin.ext (by match a with | ⟨0, _⟩ => rfl)
  rw [er, ec]

/-- Entry (i, c) of the positives' table: the distance where the labels agree, −∞ elsewhere. -/
theorem pos_eq (x0 : (⟨S8192x128, .f32⟩ : BufTy).Contents (Elt Ideal)) (x1 : (⟨S8192, .i32⟩ : BufTy).Contents (Elt Ideal))
    (i c : Fin 8192) :
    val_main_v19 (F := Ideal) x0 x1 (ix2 i c) = Cert.Spec.pos (Cert.Spec.sqn x0) x0 (fun r => x1 (ix1 r)) i c := by
  rw [val_main_v19_apply, label_eq, dist_eq, val_main_call1_v1_apply, val_main_call1_v0_apply, val_main_cst_2_apply]
  rfl

/-- Entry (i, c) of the negatives' table: +∞ where the labels agree, the distance elsewhere. -/
theorem neg_eq (x0 : (⟨S8192x128, .f32⟩ : BufTy).Contents (Elt Ideal)) (x1 : (⟨S8192, .i32⟩ : BufTy).Contents (Elt Ideal))
    (i c : Fin 8192) :
    val_main_v21 (F := Ideal) x0 x1 (ix2 i c) = Cert.Spec.neg (Cert.Spec.sqn x0) x0 (fun r => x1 (ix1 r)) i c := by
  rw [val_main_v21_apply, label_eq, dist_eq, val_main_call2_v1_apply, val_main_call2_v0_apply, val_main_cst_4_apply]
  rfl

/-! ## The two reductions over the columns -/

/-- Row `i` with column `k` put back on the reduced axis is the table's index (i, k). -/
theorem lift_row (h : S8192x8192.Reduces [1] S8192) (i : Fin 8192) (k : Fin (S8192x8192.size 1)) :
    h.lift (ix1 i) k = ix2 i (⟨k.val, k.isLt⟩ : Fin 8192) := by
  funext c; apply Fin.ext
  fin_cases c <;> rfl

/-- A reduction with a maximum over the columns is, at row `i`, the maximum of that row's 8192 entries from the initial
    value. -/
theorem reduce_max_row (x : FVec Ideal S8192x8192 .f32) (init : FVec Ideal S_ .f32) (i : Fin 8192) :
    Host.reduce FloatOps.maximumf x init reducesTo_S8192x8192_S8192_d1 h_S_ (ix1 i)
      = (Finset.univ : Finset (Fin 8192)).fold max (init (Shape.Idx.first h_S_)) (fun k => x (ix2 i k)) := by
  have h : S8192x8192.Reduces [1] S8192 := by decide
  rw [Host.reduce_eq_fold_single FloatOps.maximumf x _ reducesTo_S8192x8192_S8192_d1 h h_S_]
  have hf : (x ∘ h.lift (ix1 i)) = fun k : Fin 8192 => x (ix2 i k) := funext fun k => congrArg x (lift_row h i k)
  exact congrArg (fun f => Finset.fold max (init (Shape.Idx.first h_S_)) f (Finset.univ : Finset (Fin 8192))) hf

/-- A reduction with a minimum over the columns is, at row `i`, the minimum of that row's 8192 entries from the initial
    value. -/
theorem reduce_min_row (x : FVec Ideal S8192x8192 .f32) (init : FVec Ideal S_ .f32) (i : Fin 8192) :
    Host.reduce FloatOps.minimumf x init reducesTo_S8192x8192_S8192_d1 h_S_ (ix1 i)
      = (Finset.univ : Finset (Fin 8192)).fold min (init (Shape.Idx.first h_S_)) (fun k => x (ix2 i k)) := by
  have h : S8192x8192.Reduces [1] S8192 := by decide
  rw [Host.reduce_eq_fold_single FloatOps.minimumf x _ reducesTo_S8192x8192_S8192_d1 h h_S_]
  have hf : (x ∘ h.lift (ix1 i)) = fun k : Fin 8192 => x (ix2 i k) := funext fun k => congrArg x (lift_row h i k)
  exact congrArg (fun f => Finset.fold min (init (Shape.Idx.first h_S_)) f (Finset.univ : Finset (Fin 8192))) hf

/-- The hardest positive of row `i`: the maximum, from −∞, of the positives' row over its 8192 columns. -/
theorem hardPos_eq (x0 : (⟨S8192x128, .f32⟩ : BufTy).Contents (Elt Ideal)) (x1 : (⟨S8192, .i32⟩ : BufTy).Contents (Elt Ideal))
    (i : Fin 8192) :
    val_main_v20 (F := Ideal) x0 x1 (ix1 i) = Cert.Spec.hardPos (Cert.Spec.sqn x0) x0 (fun r => x1 (ix1 r)) i := by
  unfold val_main_v20
  refine (reduce_max_row (val_main_v19 (F := Ideal) x0 x1) (val_main_cst_3 (F := Ideal)) i).trans ?_
  exact congrArg (fun f => Finset.fold max (Ideal.ofBits .f32 0xFF800000#32) f (Finset.univ : Finset (Fin 8192)))
    (funext fun k => pos_eq x0 x1 i k)

/-- The hardest negative of row `i`: the minimum, from +∞, of the negatives' row over its 8192 columns. -/
theorem hardNeg_eq (x0 : (⟨S8192x128, .f32⟩ : BufTy).Contents (Elt Ideal)) (x1 : (⟨S8192, .i32⟩ : BufTy).Contents (Elt Ideal))
    (i : Fin 8192) :
    val_main_v22 (F := Ideal) x0 x1 (ix1 i) = Cert.Spec.hardNeg (Cert.Spec.sqn x0) x0 (fun r => x1 (ix1 r)) i := by
  unfold val_main_v22
  refine (reduce_min_row (val_main_v21 (F := Ideal) x0 x1) (val_main_cst_5 (F := Ideal)) i).trans ?_
  exact congrArg (fun f => Finset.fold min (Ideal.ofBits .f32 0x7F800000#32) f (Finset.univ : Finset (Fin 8192)))
    (funext fun k => neg_eq x0 x1 i k)

/-! ## The shared tail, and the run -/

/-- The loss is the shared tail's loss of the two mined arrays: the same operations in the same order. -/
theorem loss_eq (x0 : (⟨S8192x128, .f32⟩ : BufTy).Contents (Elt Ideal)) (x1 : (⟨S8192, .i32⟩ : BufTy).Contents (Elt Ideal)) :
    val_main_v29 (F := Ideal) x0 x1
      = Cert.Tail.loss bcast_S_S8192 reducesTo_S8192_S_d0 h_S_ (val_main_v20 (F := Ideal) x0 x1) (val_main_v22 (F := Ideal) x0 x1) := by
  unfold val_main_v29 val_main_v28 val_main_v27 val_main_v26 val_main_v25 val_main_v24 val_main_v23
    val_main_cst_9 val_main_cst_8 val_main_cst_7 val_main_cst_6 Cert.Tail.loss
  generalize val_main_v20 (F := Ideal) x0 x1 = ap
  generalize val_main_v22 (F := Ideal) x0 x1 = an
  rfl

/-- The precision is the shared tail's precision of the two mined arrays. -/
theorem prec_eq (x0 : (⟨S8192x128, .f32⟩ : BufTy).Contents (Elt Ideal)) (x1 : (⟨S8192, .i32⟩ : BufTy).Contents (Elt Ideal)) :
    val_main_v33 (F := Ideal) x0 x1
      = Cert.Tail.prec reducesTo_S8192_S_d0 h_S_ (val_main_v20 (F := Ideal) x0 x1) (val_main_v22 (F := Ideal) x0 x1) := by
  unfold val_main_v33 val_main_v32 val_main_v31 val_main_v30 val_main_cst_11 val_main_cst_10 Cert.Tail.prec
  generalize val_main_v20 (F := Ideal) x0 x1 = ap
  generalize val_main_v22 (F := Ideal) x0 x1 = an
  rfl

/-- The hardest positives of all rows, as an array over the rows, from the feature array and the label array. -/
def HP (x0 : (⟨S8192x128, .f32⟩ : BufTy).Contents (Elt Ideal)) (x1 : (⟨S8192, .i32⟩ : BufTy).Contents (Elt Ideal)) :
    FVec Ideal S8192 .f32 :=
  fun j => Cert.Spec.hardPos (Cert.Spec.sqn x0) x0 (fun r => x1 (ix1 r)) (j 0)

/-- The hardest negatives of all rows, likewise. -/
def HN (x0 : (⟨S8192x128, .f32⟩ : BufTy).Contents (Elt Ideal)) (x1 : (⟨S8192, .i32⟩ : BufTy).Contents (Elt Ideal)) :
    FVec Ideal S8192 .f32 :=
  fun j => Cert.Spec.hardNeg (Cert.Spec.sqn x0) x0 (fun r => x1 (ix1 r)) (j 0)

/-- The array the max-reduction writes is the array of hardest positives. -/
theorem v20_eq (x0 : (⟨S8192x128, .f32⟩ : BufTy).Contents (Elt Ideal)) (x1 : (⟨S8192, .i32⟩ : BufTy).Contents (Elt Ideal)) :
    val_main_v20 (F := Ideal) x0 x1 = HP x0 x1 :=
  funext fun j => (congrArg (val_main_v20 (F := Ideal) x0 x1) (eq_ix1 j)).trans (hardPos_eq x0 x1 (j 0))

/-- The array the min-reduction writes is the array of hardest negatives. -/
theorem v22_eq (x0 : (⟨S8192x128, .f32⟩ : BufTy).Contents (Elt Ideal)) (x1 : (⟨S8192, .i32⟩ : BufTy).Contents (Elt Ideal)) :
    val_main_v22 (F := Ideal) x0 x1 = HN x0 x1 :=
  funext fun j => (congrArg (val_main_v22 (F := Ideal) x0 x1) (eq_ix1 j)).trans (hardNeg_eq x0 x1 (j 0))

/-- The hardest positives of the arrays a device holds at launch. -/
abbrev AP (m : (ℓ : Loc nD τ sig) → Buf (Elt Ideal) ℓ) (c : Dev nD) : FVec Ideal S8192 .f32 :=
  HP (m ((c.tc : Thread nD τ).loc main_arg0)) (m ((c.tc : Thread nD τ).loc main_arg1))

/-- The hardest negatives of the arrays a device holds at launch. -/
abbrev AN (m : (ℓ : Loc nD τ sig) → Buf (Elt Ideal) ℓ) (c : Dev nD) : FVec Ideal S8192 .f32 :=
  HN (m ((c.tc : Thread nD τ).loc main_arg0)) (m ((c.tc : Thread nD τ).loc main_arg1))

/-- Every weakly fair execution of the reference terminates with the loss and the precision of the specification's
    two mined arrays, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = Cert.Tail.loss bcast_S_S8192 reducesTo_S8192_S_d0 h_S_ (AP m c) (AN m c)
      ∧ r.2.mem ((c.tc : Thread nD τ).loc main_v33) = Cert.Tail.prec reducesTo_S8192_S_d0 h_S_ (AP m c) (AN m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨by rw [(h c).1, val_main_v29_eq, loss_eq, v20_eq, v22_eq],
       by rw [(h c).2.1, val_main_v33_eq, prec_eq, v20_eq, v22_eq],
       (h c).2.2.1, (h c).2.2.2⟩)
    (Cert.ReferenceIdeal.Value.run (F := Ideal) m ρ)

end Cert.RefSide

end
-- ==== Proof.lean ====
/-
  Batch-hard triplet mining: 8192 rows of 128 features with integer labels; per row the largest clipped Euclidean
  distance to a row of the same label and the smallest to a row of another label; then the margin loss
  mean(max(0, 0.3 − (an − ap))) and the precision mean([an > ap]).
  The reference forms the whole 8192 × 8192 distance matrix and reduces each row once. The kernel walks an 8 × 8 grid of
  1024 × 1024 tiles: per tile the row maxima and minima, folded into two running accumulators across the eight
  column-blocks of a row-block (reset at the first, copied to the outputs at the last). On the extended reals the two
  agree because a maximum (minimum) over 8192 columns is the maximum (minimum) over eight blocks of the blocks' maxima
  (minima), −∞ (+∞) being neutral; the distances agree entry by entry — the matrix unit's product of the rounded
  operands against the transposed block is the same inner product as the reference's, a change of float format being
  the identity —, and both programs finish with the same lines applied to equal arrays.
  The frames: each kernel program runs the seven host lines, the region, the nineteen host lines; the region's frame is
  the pipeline's launch with the feature array, staged through two windows, held as two half shares; the reference is
  a straight line of host operations.
-/
import proofs.«174582_j2078764171739_1_alg».proof.Defs
import proofs.«174582_j2078764171739_1_alg».proof.Proof.Gen.Kernel
import proofs.«174582_j2078764171739_1_alg».proof.Proof.Gen.KernelIdeal
import proofs.«174582_j2078764171739_1_alg».proof.Proof.Gen.ReferenceIdeal
import proofs.«174582_j2078764171739_1_alg».proof.Proof.Gen.Pre_finite_inputs
import proofs.«174582_j2078764171739_1_alg».proof.Proof.K.Claims
import proofs.«174582_j2078764171739_1_alg».proof.Proof.KI.Results
import proofs.«174582_j2078764171739_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference's frame is its run with the results dropped. -/
theorem frame_ri : Cert.frame_ReferenceIdeal := fun m ρ _ =>
  (θ_run Cert.ReferenceIdeal.defs _ _).mono (fun _ h c => (h c).2.2) (Cert.RefSide.run_spec m ρ)

/-- The ideal pass rewrote nothing. -/
theorem preserves : Cert.preserves_Kernel_KernelIdeal := trivial

/-- Both idealized programs end at the shared tail of the specification's two arrays, of arguments that agree. -/
theorem algebraic : Cert.algebraic_KernelIdeal_ReferenceIdeal := by
  intro m ρ m' ρ' _ hagree
  refine ⟨fun c => Cert.Tail.loss Cert.KernelIdeal.Gen.bcast_S_S8192 Cert.KernelIdeal.Gen.reducesTo_S8192_S_d0 Cert.KernelIdeal.Gen.h_S_
      (Cert.KernelIdeal.Res.APk m c) (Cert.KernelIdeal.Res.ANk m c),
    fun c => Cert.Tail.prec Cert.KernelIdeal.Gen.reducesTo_S8192_S_d0 Cert.KernelIdeal.Gen.h_S_
      (Cert.KernelIdeal.Res.APk m c) (Cert.KernelIdeal.Res.ANk m c),
    Cert.KernelIdeal.Res.run_spec m ρ, ?_⟩
  refine (θ_run Cert.ReferenceIdeal.defs _ _).mono (fun _ h c => ?_) (Cert.RefSide.run_spec m' ρ')
  have eP : Cert.RefSide.AP m' c = Cert.KernelIdeal.Res.APk m c := by
    show Cert.RefSide.HP (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) = _
    rw [(hagree c).1, (hagree c).2]
    rfl
  have eN : Cert.RefSide.AN m' c = Cert.KernelIdeal.Res.ANk m c := by
    show Cert.RefSide.HN (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) = _
    rw [(hagree c).1, (hagree c).2]
    rfl
  refine ⟨(h c).1.trans ?_, (h c).2.1.trans ?_, (h c).2.2.1, (h c).2.2.2⟩
  · rw [eP, eN]
  · rw [eP, eN]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
